-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_arg6 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024x1024 .f32) (main_arg5 : FVec F S1024x1024 .f32) (main_arg6 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x2048x1024 : Shape := ⟨3, ![2, 2048, 1024]⟩
abbrev S1024x1024 : Shape := ⟨2, ![1024, 1024]⟩
abbrev S4096x1024 : Shape := ⟨2, ![4096, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S2x16x2048x2048 : Shape := ⟨4, ![2, 16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 31
  | .vmem => 30
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S2x2048x16x64, .bf16⟩
  | .hbm, ⟨14, _⟩ => ⟨S2x16x2048x64, .bf16⟩
  | .hbm, ⟨15, _⟩ => ⟨S32x2048x64, .bf16⟩
  | .hbm, ⟨16, _⟩ => ⟨S2x2048x16x64, .bf16⟩
  | .hbm, ⟨17, _⟩ => ⟨S2x16x2048x64, .bf16⟩
  | .hbm, ⟨18, _⟩ => ⟨S32x2048x64, .bf16⟩
  | .hbm, ⟨19, _⟩ => ⟨S2x2048x16x64, .bf16⟩
  | .hbm, ⟨20, _⟩ => ⟨S2x16x2048x64, .bf16⟩
  | .hbm, ⟨21, _⟩ => ⟨S32x2048x64, .bf16⟩
  | .hbm, ⟨22, _⟩ => ⟨S32x2048x64, .bf16⟩
  | .hbm, ⟨23, _⟩ => ⟨S32x2048x2048, .f32⟩
  | .hbm, ⟨24, _⟩ => ⟨S2x16x2048x64, .bf16⟩
  | .hbm, ⟨25, _⟩ => ⟨S2x2048x16x64, .bf16⟩
  | .hbm, ⟨26, _⟩ => ⟨S2x2048x1024, .bf16⟩
  | .hbm, ⟨27, _⟩ => ⟨S4096x1024, .bf16⟩
  | .hbm, ⟨28, _⟩ => ⟨S4096x1024, .f32⟩
  | .hbm, ⟨29, _⟩ => ⟨S2x2048x1024, .f32⟩
  | .hbm, ⟨30, _⟩ => ⟨S2x16x2048x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x512x64, .bf16⟩
  | .local _ .vmem, ⟨16, _⟩ => ⟨S1x512x64, .bf16⟩
  | .local _ .vmem, ⟨17, _⟩ => ⟨S1x2048x64, .bf16⟩
  | .local _ .vmem, ⟨18, _⟩ => ⟨S1x2048x64, .bf16⟩
  | .local _ .vmem, ⟨19, _⟩ => ⟨S1x2048x64, .bf16⟩
  | .local _ .vmem, ⟨20, _⟩ => ⟨S1x2048x64, .bf16⟩
  | .local _ .vmem, ⟨21, _⟩ => ⟨S1x512x64, .bf16⟩
  | .local _ .vmem, ⟨22, _⟩ => ⟨S1x512x64, .bf16⟩
  | .local _ .vmem, ⟨23, _⟩ => ⟨S1x512x2048, .f32⟩
  | .local _ .vmem, ⟨24, _⟩ => ⟨S1x512x2048, .f32⟩
  | .local _ .vmem, ⟨25, _⟩ => ⟨S1024x1024, .bf16⟩
  | .local _ .vmem, ⟨26, _⟩ => ⟨S1024x1024, .bf16⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15_0 : Ref sig .tc := ⟨.hbm, 22, rfl⟩
abbrev main_call0_v15_1 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_v0_0 : Ref sig .tc := ⟨.hbm, 29, rfl⟩
abbrev main_v0_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![32, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S2x2048x1024_S4096x1024 : S2x2048x1024.ShapeCasts S4096x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  shapeCasts_S4096x1024_S2x2048x1024 : S4096x1024.ShapeCasts S2x2048x1024
  shapeCasts_S32x2048x2048_S2x16x2048x2048 : S32x2048x2048.ShapeCasts S2x16x2048x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  dot_S1024x1024_S1024x1024_S1024x1024_1_1_0_0_n_n_wf : DotDims.WF S1024x1024 S1024x1024 S1024x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .bf16 = 32 ∨ (Rect.block (s := S4096x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S32x2048x64.size a
  hwx3_0 : ∀ i : grid3.Coords, EltTy.bits .bf16 = 32 ∨ (Rect.block (s := S32x2048x64) S1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S32x2048x64.size a
  hwx3_1 : ∀ i : grid3.Coords, EltTy.bits .bf16 = 32 ∨ (Rect.block (s := S32x2048x64) S1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S32x2048x64.size a
  hwx3_2 : ∀ i : grid3.Coords, EltTy.bits .bf16 = 32 ∨ (Rect.block (s := S32x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x64.size a ≤ S32x2048x64.size a
  hwx3_3 : ∀ i : grid3.Coords, EltTy.bits .bf16 = 32 ∨ (Rect.block (s := S32x2048x64) S1x512x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x512x2048.size a ≤ S32x2048x2048.size a
  hwx3_4 : ∀ i : grid3.Coords, EltTy.bits .f32 = 32 ∨ (Rect.block (s := S32x2048x2048) S1x512x2048.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x1024.size a
  hwx4_0 : ∀ i : grid4.Coords, EltTy.bits .bf16 = 32 ∨ (Rect.block (s := S4096x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x1024.size a
  hwx4_2 : ∀ i : grid4.Coords, EltTy.bits .f32 = 32 ∨ (Rect.block (s := S4096x1024) S1024x1024.size (cc4_transform_2 i) (hinb4_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_call0_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v5) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v8) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v11) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v14) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v15_0) S1x512x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_call0_v15_1) S1x512x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_call0_v19) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call0_v20) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x16x2048x2048, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S_, .f32⟩
  | .hbm, ⟨23, _⟩ => ⟨S2x16x2048, .f32⟩
  | .hbm, ⟨24, _⟩ => ⟨S2x16x2048, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S_, .f32⟩
  | .hbm, ⟨30, _⟩ => ⟨S2x16x2048, .f32⟩
  | .hbm, ⟨31, _⟩ => ⟨S2x16x2048x1, .f32⟩
  | .hbm, ⟨32, _⟩ => ⟨S2x16x2048x2048, .f32⟩
  | .hbm, ⟨33, _⟩ => ⟨S2x16x2048x2048, .f32⟩
  | .hbm, ⟨34, _⟩ => ⟨S2x16x2048x64, .f32⟩
  | .hbm, ⟨35, _⟩ => ⟨S2x2048x16x64, .f32⟩
  | .hbm, ⟨36, _⟩ => ⟨S2x2048x1024, .f32⟩
  | .hbm, ⟨37, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KRun.lean ====
/-
  The idealized kernel's run with its two results named.

  The program is five kernel regions among stretches of host operations. Its run ends with every buffer that outlives
  the regions at the contents the segments leave one after another: the launch memory, then each host stretch applied,
  then each region's arrays at what its write-backs leave. This module states the run with the two result buffers read
  at those final contents, beside the argument arrays, which end as launched.
-/
import proofs.«101271_j71768903516761_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the two
    result buffers end at the contents the last host stretch leaves, and the argument arrays end as launched. -/
theorem run_results : θ_run defs (onTc (τ := τ) (main (F := F))) ⟨m, fun _ => 0, ρ⟩ (fun r => ∀ c : Dev nD,
      r.2.mem ((c.tc : Thread nD τ).loc main_v0_0) = W9 m ρ c (Proc.devRef .tc main_v0_0)
      ∧ r.2.mem ((c.tc : Thread nD τ).loc main_v0_1) = W9 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Results

end
-- ==== Proof.ProjPay.lean ====
/-
  A projection block: a block of rows times the transpose of a weight matrix.

  Each of the four projection kernels loads a [1024, 1024] block x of rows and the whole [1024, 1024] weight matrix w, and
  stores the product of x with the transpose of w computed by the matrix unit into a zero accumulator: entry (p, e) is
  the sum over k of x(p, k) · w(e, k). Narrowing to another float format is the identity on the extended reals, and the
  cast of a block to its own shape changes nothing, so that sum is all the stored block holds.
-/
import proofs.«101271_j71768903516761_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ProjPay

open Cert.KernelIdeal Cert.KernelIdeal.Gen Idealize.ShloMosaic Idealize.ShloMosaic.ValueIdx

/-- The left operand's row coordinate at an output index is the output's row. -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl

/-- The left operand's column coordinate is the contraction index. -/
theorem lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

/-- The right operand's row coordinate at an output index is the output's column. -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- The right operand's column coordinate is the contraction index. -/
theorem rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of a with the transpose of b into a zero accumulator, at (p, e): the sum over k of a(p, k) · b(e, k). -/
theorem mm_apply {φ₁ φ₂ : FTy} (a : FVec Ideal S1024x1024 φ₁) (b : FVec Ideal S1024x1024 φ₂) (p e : Fin 1024) :
    matmul (F := Ideal) dot_S1024x1024_S1024x1024_S1024x1024_1_1_0_0_n_n none a b (constant S1024x1024 .f32 0x00000000#32) (ix2 p e)
      = ∑ k : Fin 1024, a (ix2 p k) * b (ix2 e k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p e) ((ValueIdx.contrEquiv1 dot_S1024x1024_S1024x1024_S1024x1024_1_1_0_0_n_n 1024 rfl rfl).symm k) = ix2 p k := funext fun ax => Fin.ext (by
    match ax with
    | ⟨0, _⟩ => exact lhs_row _ _
    | ⟨1, _⟩ => exact (lhs_col _ _).trans hk)
  have er : dot_S1024x1024_S1024x1024_S1024x1024_1_1_0_0_n_n.rhsIdx (ix2 p e) ((ValueIdx.contrEquiv1 dot_S1024x1024_S1024x1024_S1024x1024_1_1_0_0_n_n 1024 rfl rfl).symm k) = ix2 e k := funext fun ax => Fin.ext (by
    match ax with
    | ⟨0, _⟩ => exact rhs_row _ _
    | ⟨1, _⟩ => exact (rhs_col _ _).trans hk)
  rw [el, er]

/-- The query projection's stored block at (p, e). -/
theorem pay0_apply (x w : Vec Ideal S1024x1024 .f32) (p e : Fin 1024) :
    k0_pay1 (F := Ideal) x w (ix2 p e) = ∑ k : Fin 1024, x (ix2 p k) * w (ix2 e k) := by
  unfold k0_pay1
  refine (mm_apply _ _ p e).trans (Finset.sum_congr rfl fun k _ => ?_)
  show shapeCast S1024x1024 x shapeCasts_S1024x1024_S1024x1024 (ix2 p k) * w (ix2 e k) = _
  rw [shapeCast_self]

/-- The key projection's stored block at (p, e). -/
theorem pay1_apply (x w : Vec Ideal S1024x1024 .f32) (p e : Fin 1024) :
    k1_pay1 (F := Ideal) x w (ix2 p e) = ∑ k : Fin 1024, x (ix2 p k) * w (ix2 e k) := by
  unfold k1_pay1
  refine (mm_apply _ _ p e).trans (Finset.sum_congr rfl fun k _ => ?_)
  show shapeCast S1024x1024 x shapeCasts_S1024x1024_S1024x1024 (ix2 p k) * w (ix2 e k) = _
  rw [shapeCast_self]

/-- The value projection's stored block at (p, e). -/
theorem pay2_apply (x w : Vec Ideal S1024x1024 .f32) (p e : Fin 1024) :
    k2_pay1 (F := Ideal) x w (ix2 p e) = ∑ k : Fin 1024, x (ix2 p k) * w (ix2 e k) := by
  unfold k2_pay1
  refine (mm_apply _ _ p e).trans (Finset.sum_congr rfl fun k _ => ?_)
  show shapeCast S1024x1024 x shapeCasts_S1024x1024_S1024x1024 (ix2 p k) * w (ix2 e k) = _
  rw [shapeCast_self]

/-- The output projection's stored block at (p, e). -/
theorem pay4_apply (x : Vec Ideal S1024x1024 .bf16) (w : Vec Ideal S1024x1024 .f32) (p e : Fin 1024) :
    k4_pay1 (F := Ideal) x w (ix2 p e) = ∑ k : Fin 1024, x (ix2 p k) * w (ix2 e k) := by
  unfold k4_pay1
  refine (mm_apply _ _ p e).trans (Finset.sum_congr rfl fun k _ => ?_)
  show shapeCast S1024x1024 x shapeCasts_S1024x1024_S1024x1024 (ix2 p k) * w (ix2 e k) = _
  rw [shapeCast_self]

end Cert.KernelIdeal.ProjPay

end
-- ==== Proof.ProjSpec.lean ====
/-
  The product of a tall array of rows with the transpose of a square weight matrix, and one block of it.

  For X of shape [4096, 1024] and W of shape [1024, 1024] the product P = X·Wᵀ has P(r, e) = Σ_k X(r, k)·W(e, k). A block of
  1024 consecutive rows of P starting at row r₀ depends only on the same rows of X: if x holds rows r₀ … r₀ + 1023 of X
  and w holds W, then the block's entry (p, e) is Σ_k x(p, k)·w(e, k).
-/
import proofs.«101271_j71768903516761_2_alg».proof.KernelIdeal
import Idealize.ShloMosaic.Lib.ValueIdx
import Idealize.ShloMosaic.PureOps.Ideal

noncomputable section

namespace Cert.KernelIdeal.ProjSpec

open Cert.KernelIdeal Idealize.ShloMosaic Idealize.ShloMosaic.ValueIdx

/-- Rows times transposed weights: entry (r, e) is the sum over k of X(r, k) · W(e, k). -/
def PJ (X : S4096x1024.Idx → EReal) (W : S1024x1024.Idx → EReal) : S4096x1024.Idx → EReal :=
  fun i => ∑ k : Fin 1024, X (ix2 (n0 := 4096) (n1 := 1024) (i 0) k) * W (ix2 (n0 := 1024) (n1 := 1024) (i 1) k)

/-- The product read at an index built from coordinates. -/
theorem PJ_apply (X : S4096x1024.Idx → EReal) (W : S1024x1024.Idx → EReal) (r : Fin 4096) (e : Fin 1024) :
    PJ X W (ix2 r e) = ∑ k : Fin 1024, X (ix2 r k) * W (ix2 e k) := rfl

/-- A block whose entry (p, e) is the sum over k of x(p, k) · w(e, k) is, at j, the product X·Wᵀ at i, when x holds rows
    r₀ … of X, w holds W, and i is j moved down by r₀ rows. -/
theorem block_eq (x w : S1024x1024.Idx → EReal) (X : S4096x1024.Idx → EReal) (W : S1024x1024.Idx → EReal) (r₀ : ℕ)
    (j : S1024x1024.Idx) (i : S4096x1024.Idx)
    (hx : ∀ (p k : Fin 1024) (r : Fin 4096), r.val = r₀ + p.val → x (ix2 p k) = X (ix2 r k))
    (hw : ∀ e k : Fin 1024, w (ix2 e k) = W (ix2 e k))
    (hi0 : (i 0).val = r₀ + (j 0).val) (hi1 : (i 1).val = (j 1).val)
    {pay : S1024x1024.Idx → EReal} (hpay : ∀ p e : Fin 1024, pay (ix2 p e) = ∑ k : Fin 1024, x (ix2 p k) * w (ix2 e k)) :
    pay j = PJ X W i := by
  obtain ⟨p, e, rfl⟩ : ∃ (p e : Fin 1024), j = ix2 p e := ⟨j 0, j 1, eq_ix2 j⟩
  obtain ⟨r, e', rfl⟩ : ∃ (r : Fin 4096) (e' : Fin 1024), i = ix2 r e' := ⟨i 0, i 1, eq_ix2 i⟩
  have hr : r.val = r₀ + p.val := hi0
  have he : e' = e := Fin.ext hi1
  subst he
  rw [hpay, PJ_apply]
  refine Finset.sum_congr rfl fun k _ => ?_
  rw [hx p k r hr, hw e' k]

end Cert.KernelIdeal.ProjSpec

end
-- ==== Proof.Reg0.lean ====
/-
  Projection region 0: the array it leaves.

  The region walks four grid points; point t loads rows 1024·t … 1024·t + 1023 of the [4096, 1024] row array and the whole
  [1024, 1024] weight matrix, and writes back the product of that block of rows with the transposed weights as rows
  1024·t … of the [4096, 1024] result. The four blocks tile the result, so the result array ends holding, at (r, e), the
  sum over k of rows(r, k) · weights(e, k) — one function of the arrays the region found on entry.
-/
import proofs.«101271_j71768903516761_2_alg».proof.Proof.Gen.KernelIdeal.Frame
import proofs.«101271_j71768903516761_2_alg».proof.Proof.ProjPay
import proofs.«101271_j71768903516761_2_alg».proof.Proof.ProjSpec

set_option maxRecDepth 16384

noncomputable section

namespace Cert.KernelIdeal.Reg0

open Cert.KernelIdeal Cert.KernelIdeal.Gen Cert.KernelIdeal.ProjSpec
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row array and the result move one block of rows per point, the weights
    stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product of the row array with the transposed weights. -/
theorem flushed_eq (c : Dev nD) (t : Fin cfg0.N) :
    (dat0 V c).flushed 2 t = ((cfg0.win 2).blk t).view.read (Elt Ideal) (PJ (V c main_call0_v0) (V c main_arg3)) := by
  show (cfg0.win 2).cut (grid0.coords t) ((dat0 V c).after 2 t) = _
  rw [after0_2]
  unfold out0_2
  rw [View.canon_unit_zero hz]
  simp only [View.ld_unit_zero (S := S1024x1024) hz]
  obtain ⟨e0, e1, e2, e3, e4, e5⟩ := idx_facts t
  funext j
  show k0_pay1 (F := Ideal) (iblk0 V c 0 t) (iblk0 V c 1 t) j = PJ (V c main_call0_v0) (V c main_arg3) (((cfg0.win 2).blk t).view.emb j)
  have ht : t.val < 4 := by have := t.isLt; have hN : grid0.N = 4 := N_0; exact hN ▸ this
  refine block_eq (iblk0 V c 0 t) (iblk0 V c 1 t) (V c main_call0_v0) (V c main_arg3) (1024 * t.val) j _ ?_ ?_ ?_ ?_ (ProjPay.pay0_apply _ _)
  · intro p k r hr
    show V c main_call0_v0 (((cfg0.win 0).blk t).view.emb (ix2 p k)) = V c main_call0_v0 (ix2 r k)
    refine congrArg (V c main_call0_v0) (funext fun a => Fin.ext ?_)
    match a with
    | ⟨0, _⟩ => show win0_0.index t (0 : Fin 2) * 1024 + 1 * p.val = r.val; omega
    | ⟨1, _⟩ => show win0_0.index t (1 : Fin 2) * 1024 + 1 * k.val = k.val; omega
  · intro e k
    show V c main_arg3 (((cfg0.win 1).blk t).view.emb (ix2 e k)) = V c main_arg3 (ix2 e k)
    refine congrArg (V c main_arg3) (funext fun a => Fin.ext ?_)
    match a with
    | ⟨0, _⟩ => show win0_1.index t (0 : Fin 2) * 1024 + 1 * e.val = e.val; omega
    | ⟨1, _⟩ => show win0_1.index t (1 : Fin 2) * 1024 + 1 * k.val = k.val; omega
  · show win0_2.index t (0 : Fin 2) * 1024 + 1 * (j 0).val = 1024 * t.val + (j 0).val; omega
  · show win0_2.index t (1 : Fin 2) * 1024 + 1 * (j 1).val = (j 1).val; omega

/-- An index of the result is in point t's block iff each coordinate is in the block's range on its axis. -/
theorem mem_blk (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_call0_v3).slice (win0_2.rect t)).set ↔ _
  rw [View.set_slice_whole, Rect.mem_set_unit]
  exact Iff.rfl

/-- Every index of the result is in the block of the point that owns its row: row r belongs to point r / 1024. -/
theorem cover (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  have hN : grid0.N = 4 := N_0
  let t : Fin cfg0.N := ⟨(i 0).val / 1024, by show (i 0).val / 1024 < grid0.N; omega⟩
  have htv : t.val = (i 0).val / 1024 := rfl
  obtain ⟨e0, e1, e2, e3, e4, e5⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the region: the product of the row array with the transposed weights, as the region found them. -/
theorem final (c : Dev nD) : (dat0 V c).arrAt 2 cfg0.N = PJ (V c main_call0_v0) (V c main_arg3) :=
  (dat0 V c).arrAt_eq_of_cover 2 (PJ (V c main_call0_v0) (V c main_arg3)) (fun t _ => flushed_eq V c t) (cover)

end Cert.KernelIdeal.Reg0

end
-- ==== Proof.Reg1.lean ====
/-
  Projection region 1: the array it leaves.

  The region walks four grid points; point t loads rows 1024·t … 1024·t + 1023 of the [4096, 1024] row array and the whole
  [1024, 1024] weight matrix, and writes back the product of that block of rows with the transposed weights as rows
  1024·t … of the [4096, 1024] result. The four blocks tile the result, so the result array ends holding, at (r, e), the
  sum over k of rows(r, k) · weights(e, k) — one function of the arrays the region found on entry.
-/
import proofs.«101271_j71768903516761_2_alg».proof.Proof.Gen.KernelIdeal.Frame
import proofs.«101271_j71768903516761_2_alg».proof.Proof.ProjPay
import proofs.«101271_j71768903516761_2_alg».proof.Proof.ProjSpec

set_option maxRecDepth 16384

noncomputable section

namespace Cert.KernelIdeal.Reg1

open Cert.KernelIdeal Cert.KernelIdeal.Gen Cert.KernelIdeal.ProjSpec
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row array and the result move one block of rows per point, the weights
    stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of the product of the row array with the transposed weights. -/
theorem flushed_eq (c : Dev nD) (t : Fin cfg1.N) :
    (dat1 V c).flushed 2 t = ((cfg1.win 2).blk t).view.read (Elt Ideal) (PJ (V c main_call0_v1) (V c main_arg4)) := by
  show (cfg1.win 2).cut (grid1.coords t) ((dat1 V c).after 2 t) = _
  rw [after1_2]
  unfold out1_2
  rw [View.canon_unit_zero hz]
  simp only [View.ld_unit_zero (S := S1024x1024) hz]
  obtain ⟨e0, e1, e2, e3, e4, e5⟩ := idx_facts t
  funext j
  show k1_pay1 (F := Ideal) (iblk1 V c 0 t) (iblk1 V c 1 t) j = PJ (V c main_call0_v1) (V c main_arg4) (((cfg1.win 2).blk t).view.emb j)
  have ht : t.val < 4 := by have := t.isLt; have hN : grid1.N = 4 := N_1; exact hN ▸ this
  refine block_eq (iblk1 V c 0 t) (iblk1 V c 1 t) (V c main_call0_v1) (V c main_arg4) (1024 * t.val) j _ ?_ ?_ ?_ ?_ (ProjPay.pay1_apply _ _)
  · intro p k r hr
    show V c main_call0_v1 (((cfg1.win 0).blk t).view.emb (ix2 p k)) = V c main_call0_v1 (ix2 r k)
    refine congrArg (V c main_call0_v1) (funext fun a => Fin.ext ?_)
    match a with
    | ⟨0, _⟩ => show win1_0.index t (0 : Fin 2) * 1024 + 1 * p.val = r.val; omega
    | ⟨1, _⟩ => show win1_0.index t (1 : Fin 2) * 1024 + 1 * k.val = k.val; omega
  · intro e k
    show V c main_arg4 (((cfg1.win 1).blk t).view.emb (ix2 e k)) = V c main_arg4 (ix2 e k)
    refine congrArg (V c main_arg4) (funext fun a => Fin.ext ?_)
    match a with
    | ⟨0, _⟩ => show win1_1.index t (0 : Fin 2) * 1024 + 1 * e.val = e.val; omega
    | ⟨1, _⟩ => show win1_1.index t (1 : Fin 2) * 1024 + 1 * k.val = k.val; omega
  · show win1_2.index t (0 : Fin 2) * 1024 + 1 * (j 0).val = 1024 * t.val + (j 0).val; omega
  · show win1_2.index t (1 : Fin 2) * 1024 + 1 * (j 1).val = (j 1).val; omega

/-- An index of the result is in point t's block iff each coordinate is in the block's range on its axis. -/
theorem mem_blk (t : Fin cfg1.N) (i : S4096x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_call0_v4).slice (win1_2.rect t)).set ↔ _
  rw [View.set_slice_whole, Rect.mem_set_unit]
  exact Iff.rfl

/-- Every index of the result is in the block of the point that owns its row: row r belongs to point r / 1024. -/
theorem cover (i : S4096x1024.Idx) : ∃ t : Fin cfg1.N, (cfg1.win 2).flush t = true ∧ i ∈ ((cfg1.win 2).blk t).view.set := by
  have hi0 : (i 0).val < 4096 := (i 0).isLt
  have hi1 : (i 1).val < 1024 := (i 1).isLt
  have hN : grid1.N = 4 := N_1
  let t : Fin cfg1.N := ⟨(i 0).val / 1024, by show (i 0).val / 1024 < grid1.N; omega⟩
  have htv : t.val = (i 0).val / 1024 := rfl
  obtain ⟨e0, e1, e2, e3, e4, e5⟩ := idx_facts t
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- THE RESULT ARRAY after the region: the product of the row array with the transposed weights, as the region found them. -/
theorem final (c : Dev nD) : (dat1 V c).arrAt 2 cfg1.N = PJ (V c main_call0_v1) (V c main_arg4) :=
  (dat1 V c).arrAt_eq_of_cover 2 (PJ (V c main_call0_v1) (V c main_arg4)) (fun t _ => flushed_eq V c t) (cover)

end Cert.KernelIdeal.Reg1

end
-- ==== Proof.Reg2.lean ====
/-
  Projection region 2: the array it leaves.

  The region walks four grid points; point t loads rows 1024·t … 1024·t + 1023 of the [4096, 1024] row array and the whole
  [1024, 1024] weight matrix, and writes back the product of that block of rows with the transposed weights as rows
  1024·t … of the [4096, 1024] result. The four blocks tile the result, so the result array ends holding, at (r, e), the
  sum over k of rows(r, k) · weights(e, k) — one function of the arrays the region found on entry.
-/
import proofs.«101271_j71768903516761_2_alg».proof.Proof.Gen.KernelIdeal.Frame
import proofs.«101271_j71768903516761_2_alg».proof.Proof.ProjPay
import proofs.«101271_j71768903516761_2_alg».proof.Proof.ProjSpec

set_option maxRecDepth 16384

noncomputable section

namespace Cert.KernelIdeal.Reg2

open Cert.KernelIdeal Cert.KernelIdeal.Gen Cert.KernelIdeal.ProjSpec
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row array and the result move one block of rows per point, the weights
    stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the product of the row array with the transposed weights. -/
theorem flushed_eq (c : Dev nD) (t : Fin cfg2.N) :
    (dat2 V c).flushed 2 t = ((cfg2.win 2).blk t).view.read (Elt Ideal) (PJ (V c main_call0_v2) (V c main_arg5)) := by
  show (cfg2.win 2).cut (grid2.coords t) ((dat2 V c).after 2 t) = _
  rw [after2_2]
  unfold out2_2
  rw [View.canon_unit_zero hz]
  simp only [View.ld_unit_zero (S := S1024x1024) hz]
  obtain ⟨e0, e1, e2, e3, e4, e5⟩ := idx_facts t
  funext j
  show k2_pay1 (F := Ideal) (iblk2 V c 0 t) (iblk2 V c 1 t) j = PJ (V c main_call0_v2) (V c main_arg5) (((cfg2.win 2).blk t).view.emb j)
  have ht : t.val < 4 := by have := t.isLt; have hN : grid2.N = 4 := N_2; exact hN ▸ this
  refine block_eq (iblk2 V c 0 t) (iblk2 V c 1 t) (V c main_call0_v2) (V c main_arg5) (1024 * t.val) j _ ?_ ?_ ?_ ?_ (ProjPay.pay2_apply _ _)
  · intro p k r hr
    show V c main_call0_v2 (((cfg2.win 0).blk t).view.emb (ix2 p k)) = V c main_call0_v2 (ix2 r k)
    refine congrArg (V c main_call0_v2) (funext fun a => Fin.ext ?_)
    match a with
    | ⟨0, _⟩ => show win2_0.index t (0 : Fin 2) * 1024 + 1 * p.val = r.val; omega
    | ⟨1, _⟩ => show win2_0.index t (1 : Fin 2) * 1024 + 1 * k.val = k.val; omega
  · intro e k
    show V c main_arg5 (((cfg2.win 1).blk t).view.emb (ix2 e k)) = V c main_arg5 (ix2 e k)
    refine congrArg (V c main_arg5) (funext fun a => Fin.ext ?_)
    match a with
    | ⟨0, _⟩ => show win2_1.index t (0 : Fin 2) * 1024 + 1 * e.val = e.val; omega
    | ⟨1, _⟩ => show win2_1.index t (1 : Fin 2) * 1024 + 1 * k.val = k.val; omega
  · show win2_2.index t (0 : Fin 2) * 1024 + 1 * (j 0).val = 1024 * t.val + (j 0).val; omega
  · show win2_2.index t (1 : Fin 2) * 1024 + 1 * (j 1).val = (j 1).val; omega

/-- An index of the result is in point t's block iff each coordinate is in the block's range on its axis. -/
theorem mem_blk (t : Fin cfg2.N) (i : S4096x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_call0_v5).slice (win2_2.rect t)).set ↔ _
  rw [View.set_slice_whole, Rect.mem_set_unit]
  exact Iff.rfl

/-- Every index of the result is in the block of the point that owns its row: row r belongs to point r / 1024. -/
theorem cover (i : S4096x1024.Idx) : ∃ t : Fin cfg2.N, (cfg2.win 2).flush t = true ∧ i ∈ ((cfg2.win 2).blk t).view.set := by
  have hi0 : (i 0).val < 4096 := (i 0).isLt
  have hi1 : (i 1).val < 1024 := (i 1).isLt
  have hN : grid2.N = 4 := N_2
  let t : Fin cfg2.N := ⟨(i 0).val / 1024, by show (i 0).val / 1024 < grid2.N; omega⟩
  have htv : t.val = (i 0).val / 1024 := rfl
  obtain ⟨e0, e1, e2, e3, e4, e5⟩ := idx_facts t
  refine ⟨t, flush2_2 t, ?_⟩
  rw [mem_blk]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- THE RESULT ARRAY after the region: the product of the row array with the transposed weights, as the region found them. -/
theorem final (c : Dev nD) : (dat2 V c).arrAt 2 cfg2.N = PJ (V c main_call0_v2) (V c main_arg5) :=
  (dat2 V c).arrAt_eq_of_cover 2 (PJ (V c main_call0_v2) (V c main_arg5)) (fun t _ => flushed_eq V c t) (cover)

end Cert.KernelIdeal.Reg2

end
-- ==== Proof.Spec.lean ====
/-
  The mathematics both programs share, stated once over plain functions on the extended reals.

  A row of attention weights is computed from a row of scores s(0), …, s(2047): with M the largest score, entry j is
  exp(s(j) − M) divided by the sum over k of exp(s(k) − M). The scores themselves are dot products of a query row with
  each key row, multiplied by 1/8 (one over the square root of the head width 64), whose binary32 word is kept as it
  is printed: the same word stands on both sides and is never evaluated.
-/
import Idealize.ShloMosaic.PureOps.Ideal

noncomputable section

namespace Cert.Attn

open Idealize.ShloMosaic

/-- The factor 1/8 on the scores, by its binary32 word. -/
def scale : EReal := Ideal.ofBits .f32 0x3E000000#32

/-- One row of attention weights from its row of scores: exp(s j − sup s) over the sum of exp(s k − sup s). -/
def softRow (s : Fin 2048 → EReal) (j : Fin 2048) : EReal :=
  Ideal.div (Ideal.exp (s j - ⨆ k, s k)) (∑ k : Fin 2048, Ideal.exp (s k - ⨆ k', s k'))

end Cert.Attn

end
-- ==== Proof.LibReduceInf.lean ====
/-
  Minimum and maximum reductions read at the extended reals as infimum and supremum.

  At the exact values a float minimum is `min` and a float maximum is `max` on the extended reals, the
  pattern of `+∞` is the top element and the pattern of `-∞` the bottom. A fold of `min` from the top over
  a finite set is therefore the infimum over the set, and a fold of `max` from the bottom the supremum.
  The lemmas below say so of a host reduction and of a kernel's vector reduction, over the set of source
  indices that reduce to a result index, over all source indices when every result axis has size one,
  and over the coordinates of the one reduced axis.
-/
import Idealize.ShloMosaic.PureOps.Ideal
import Idealize.ShloMosaic.PureOps.Ideal.Laws
import Idealize.ShloMosaic.PureOps.Reduce
import Idealize.ShloMosaic.Lib.ValueIdx
import Mathlib.Order.CompleteLattice.Finset

noncomputable section

namespace Cert.LibReduceInf

open Idealize.ShloMosaic Idealize.ShloMosaic.ValueIdx

/-- The binary32 pattern of `+∞` denotes the top extended real. -/
theorem ofBits_posInf_f32 : Ideal.ofBits .f32 0x7F800000#32 = ⊤ := by
  simp [Ideal.ofBits, Ideal.ieee]

/-- The binary32 pattern of `-∞` denotes the bottom extended real. -/
theorem ofBits_negInf_f32 : Ideal.ofBits .f32 0xFF800000#32 = ⊥ := by
  simp [Ideal.ofBits, Ideal.ieee]

/-- A fold from the top element of an operation that is `min` is the infimum over the set. -/
theorem fold_eq_inf {ι : Type} (op : EReal → EReal → EReal) [Std.Commutative op] [Std.Associative op]
    (hop : ∀ x y, op x y = min x y) (S : Finset ι) (f : ι → EReal) : S.fold op ⊤ f = S.inf f := by
  induction S using Finset.cons_induction with
  | empty => simp
  | cons a S ha ih => rw [Finset.fold_cons, Finset.inf_cons, ih, hop]

/-- A fold from the bottom element of an operation that is `max` is the supremum over the set. -/
theorem fold_eq_sup {ι : Type} (op : EReal → EReal → EReal) [Std.Commutative op] [Std.Associative op]
    (hop : ∀ x y, op x y = max x y) (S : Finset ι) (f : ι → EReal) : S.fold op ⊥ f = S.sup f := by
  induction S using Finset.cons_induction with
  | empty => simp
  | cons a S ha ih => rw [Finset.fold_cons, Finset.sup_cons, ih, hop]

/-! ## The host's reduction -/

/-- A host reduction with a minimum body from `+∞`, at a result index: the infimum over the set of
    source indices that reduce to it. -/
theorem hostReduce_minimumf_eq_inf {s t u : Shape} {axes : List (Fin s.rank)} (x : s.Idx → EReal)
    (h : s.ReducesTo axes t) (hu : 0 < u.numel) (j : t.Idx) :
    Host.reduce (FloatOps.minimumf (F := Ideal) (φ := .f32)) x (constant (F := Ideal) u .f32 0x7F800000#32) h hu j
      = (Finset.univ.filter fun i => h.drop i = j).inf x := by
  rw [Host.reduce_eq_fold]
  show Finset.fold _ (Ideal.ofBits .f32 0x7F800000#32) x _ = _
  rw [ofBits_posInf_f32, fold_eq_inf (FloatOps.minimumf (F := Ideal) (φ := .f32)) (fun _ _ => rfl)]

/-- A host reduction with a maximum body from `-∞`, at a result index: the supremum over the set of
    source indices that reduce to it. -/
theorem hostReduce_maximumf_eq_sup {s t u : Shape} {axes : List (Fin s.rank)} (x : s.Idx → EReal)
    (h : s.ReducesTo axes t) (hu : 0 < u.numel) (j : t.Idx) :
    Host.reduce (FloatOps.maximumf (F := Ideal) (φ := .f32)) x (constant (F := Ideal) u .f32 0xFF800000#32) h hu j
      = (Finset.univ.filter fun i => h.drop i = j).sup x := by
  rw [Host.reduce_eq_fold]
  show Finset.fold _ (Ideal.ofBits .f32 0xFF800000#32) x _ = _
  rw [ofBits_negInf_f32, fold_eq_sup (FloatOps.maximumf (F := Ideal) (φ := .f32)) (fun _ _ => rfl)]

/-- Into a shape whose every axis has size one every source index reduces to the one result index. -/
theorem filter_drop_eq_univ {s t : Shape} {axes : List (Fin s.rank)} (h : s.ReducesTo axes t)
    (ht : ∀ b, t.size b = 1) (j : t.Idx) : (Finset.univ.filter fun i => h.drop i = j) = Finset.univ :=
  Finset.filter_true_of_mem fun i _ => funext fun b => Fin.ext (by
    have := (h.drop i b).isLt; have := (j b).isLt; have := ht b; omega)

/-- A host reduction with a minimum body from `+∞` into a shape whose every axis has size one (a full
    reduction to rank zero, where the size hypothesis is vacuous): the infimum of the whole operand. -/
theorem hostReduce_minimumf_total {s t u : Shape} {axes : List (Fin s.rank)} (x : s.Idx → EReal)
    (h : s.ReducesTo axes t) (ht : ∀ b, t.size b = 1) (hu : 0 < u.numel) :
    Host.reduce (FloatOps.minimumf (F := Ideal) (φ := .f32)) x (constant (F := Ideal) u .f32 0x7F800000#32) h hu
      = fun _ => ⨅ i, x i := by
  funext j
  rw [hostReduce_minimumf_eq_inf, filter_drop_eq_univ h ht, Finset.inf_univ_eq_iInf]

/-- A host reduction with a maximum body from `-∞` into a shape whose every axis has size one: the
    supremum of the whole operand. -/
theorem hostReduce_maximumf_total {s t u : Shape} {axes : List (Fin s.rank)} (x : s.Idx → EReal)
    (h : s.ReducesTo axes t) (ht : ∀ b, t.size b = 1) (hu : 0 < u.numel) :
    Host.reduce (FloatOps.maximumf (F := Ideal) (φ := .f32)) x (constant (F := Ideal) u .f32 0xFF800000#32) h hu
      = fun _ => ⨆ i, x i := by
  funext j
  rw [hostReduce_maximumf_eq_sup, filter_drop_eq_univ h ht, Finset.sup_univ_eq_iSup]

/-! ## A kernel's vector reduction -/

/-- A kernel's minimum reduction from `+∞`, at a result index: the infimum over the set of source
    indices that reduce to it. -/
theorem multiReduction_minimumf_eq_inf {s t : Shape} {axes : List (Fin s.rank)} (src : FVec Ideal s .f32)
    (h : s.Reduces axes t) (hφ : FKind.Formats .f32) (hacc : (0x7F800000#32 : BitVec 32) = 0x7F800000#32) (j : t.Idx) :
    multiReduction (F := Ideal) .minimumf axes t src 0x7F800000#32 h hφ hacc j
      = (Finset.univ.filter fun i => h.drop i = j).inf src := by
  refine (multiReduction_minimumf_eq_fold src 0x7F800000#32 h hφ hacc j).trans ?_
  show Finset.fold _ (Ideal.ofBits .f32 0x7F800000#32) src _ = _
  rw [ofBits_posInf_f32, fold_eq_inf (FloatOps.minimumf (F := Ideal) (φ := .f32)) (fun _ _ => rfl)]

/-- A kernel's maximum reduction from `-∞`, at a result index: the supremum over the set of source
    indices that reduce to it. -/
theorem multiReduction_maximumf_eq_sup {s t : Shape} {axes : List (Fin s.rank)} (src : FVec Ideal s .f32)
    (h : s.Reduces axes t) (hφ : FKind.Formats .f32) (hacc : (0xFF800000#32 : BitVec 32) = 0xFF800000#32) (j : t.Idx) :
    multiReduction (F := Ideal) .maximumf axes t src 0xFF800000#32 h hφ hacc j
      = (Finset.univ.filter fun i => h.drop i = j).sup src := by
  refine (multiReduction_maximumf_eq_fold src 0xFF800000#32 h hφ hacc j).trans ?_
  show Finset.fold _ (Ideal.ofBits .f32 0xFF800000#32) src _ = _
  rw [ofBits_negInf_f32, fold_eq_sup (FloatOps.maximumf (F := Ideal) (φ := .f32)) (fun _ _ => rfl)]

/-- A kernel's minimum reduction over ONE axis from `+∞`, at a result index `j`: the infimum over that
    axis's coordinates `k` of the source at `j` with `k` inserted. -/
theorem multiReduction_minimumf_single {s t : Shape} {a : Fin s.rank} (src : FVec Ideal s .f32)
    (h : s.Reduces [a] t) (hφ : FKind.Formats .f32) (hacc : (0x7F800000#32 : BitVec 32) = 0x7F800000#32) (j : t.Idx) :
    multiReduction (F := Ideal) .minimumf [a] t src 0x7F800000#32 h hφ hacc j
      = ⨅ k : Fin (s.size a), src (h.lift j k) := by
  refine (multiReduction_minimumf_eq_fold src 0x7F800000#32 h hφ hacc j).trans ?_
  rw [h.fold_filter_drop_single]
  show Finset.fold _ (Ideal.ofBits .f32 0x7F800000#32) _ _ = _
  rw [ofBits_posInf_f32, fold_eq_inf (FloatOps.minimumf (F := Ideal) (φ := .f32)) (fun _ _ => rfl), Finset.inf_univ_eq_iInf]
  rfl

/-- A kernel's maximum reduction over ONE axis from `-∞`, at a result index `j`: the supremum over that
    axis's coordinates `k` of the source at `j` with `k` inserted. -/
theorem multiReduction_maximumf_single {s t : Shape} {a : Fin s.rank} (src : FVec Ideal s .f32)
    (h : s.Reduces [a] t) (hφ : FKind.Formats .f32) (hacc : (0xFF800000#32 : BitVec 32) = 0xFF800000#32) (j : t.Idx) :
    multiReduction (F := Ideal) .maximumf [a] t src 0xFF800000#32 h hφ hacc j
      = ⨆ k : Fin (s.size a), src (h.lift j k) := by
  refine (multiReduction_maximumf_eq_fold src 0xFF800000#32 h hφ hacc j).trans ?_
  rw [h.fold_filter_drop_single]
  show Finset.fold _ (Ideal.ofBits .f32 0xFF800000#32) _ _ = _
  rw [ofBits_negInf_f32, fold_eq_sup (FloatOps.maximumf (F := Ideal) (φ := .f32)) (fun _ _ => rfl), Finset.sup_univ_eq_iSup]
  rfl

end Cert.LibReduceInf

end
-- ==== Proof.LibLayoutCols.lean ====
/-
  Layout facts for a row statistic kept as a column (`keepdims`): an `[a]` array cast to `[a, 1]`, an `[a, 1]` column
  broadcast across `[a, b]`, and a sum along the second axis of an `[a, b]` array read at a row. General: they mention
  no program.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.LayoutCols

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float sum along the second axis of an `[a, b]` array of extended reals, read at row `p`: the sum over the
    row's entries. (The accumulator's word is the sum's neutral element, whatever way its proof is spelt.) -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.Lib.LayoutCols

end
-- ==== Proof.AttnPay.lean ====
/-
  The attention body of the idealized kernel, read at an index built from coordinates.

  One step of the grid handles a block of 512 query rows of one head against all 2048 key rows. With q the block of
  queries, k the keys and v the values (each row of width 64), the body forms the scores s(p, j) = (∑ d, q(p, d) · k(j, d)) · c,
  c the word of 1/8; takes along each row the maximum M(p) and the weights w(p, j) = exp(s(p, j) − M(p)) / ∑ j', exp(s(p, j') − M(p));
  stores the weights, and stores the context ∑ j, w(p, j) · v(j, d). At the exact values every change of float format is
  the identity, so the three stored terms read at an index are exactly these expressions.
-/
import proofs.«101271_j71768903516761_2_alg».proof.Proof.Gen.KernelIdeal.Skeleton
import proofs.«101271_j71768903516761_2_alg».proof.Proof.Spec
import proofs.«101271_j71768903516761_2_alg».proof.Proof.LibReduceInf
import proofs.«101271_j71768903516761_2_alg».proof.Proof.LibLayoutCols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnPay

open Cert.KernelIdeal Cert.KernelIdeal.Gen Idealize.ShloMosaic Idealize.ShloMosaic.ValueIdx

/-- The stored weights block is the weights with a leading unit axis. -/
theorem pay2_apply (x0 : Vec Ideal S1x512x64 .bf16) (x1 : Vec Ideal S1x2048x64 .bf16) (u : Fin 1) (p : Fin 512) (j : Fin 2048) :
    k3_pay2 (F := Ideal) x0 x1 (ix3 u p j) = k3_pay1 (F := Ideal) x0 x1 (ix2 p j) := by
  unfold k3_pay2
  exact shapeCast_ab_1ab_apply _ _ u p j

/-- The contraction of a query row with a key row: both operands contract their width axis. -/
abbrev Dqk : DotDims S512x64 S2048x64 S512x2048 := dot_S512x64_S2048x64_S512x2048_1_1_0_0_n_n
/-- The contraction of a weights row with a column of the values. -/
abbrev Dwv : DotDims S512x2048 S2048x64 S512x64 := dot_S512x2048_S2048x64_S512x64_1_0_0_1_n_n

/-! ## The two contractions read at an index -/

theorem qk_lhs0 (i : S512x2048.Idx) (q : Dqk.contr.Idx) : (Dqk.lhsIdx i q 0).val = (i 0).val := by
  unfold DotDims.lhsIdx
  rw [dif_neg (show ¬(0 : Fin S512x64.rank) ∈ Dqk.lhsBatch by decide), dif_pos (show (0 : Fin S512x64.rank) ∈ Dqk.lhsNonContracting by decide)]
  rfl
theorem qk_lhs1 (i : S512x2048.Idx) (q : Dqk.contr.Idx) : (Dqk.lhsIdx i q 1).val = (q ⟨0, by decide⟩).val :=
  Dqk.lhsIdx_val_of_single rfl i q
theorem qk_rhs0 (i : S512x2048.Idx) (q : Dqk.contr.Idx) : (Dqk.rhsIdx i q 0).val = (i 1).val := by
  unfold DotDims.rhsIdx
  rw [dif_neg (show ¬(0 : Fin S2048x64.rank) ∈ Dqk.rhsBatch by decide), dif_pos (show (0 : Fin S2048x64.rank) ∈ Dqk.rhsNonContracting by decide)]
  rfl
theorem qk_rhs1 (i : S512x2048.Idx) (q : Dqk.contr.Idx) : (Dqk.rhsIdx i q 1).val = (q ⟨0, by decide⟩).val :=
  Dqk.rhsIdx_val_of_single rfl i q

/-- The product of a [512, 64] array with the transpose of a [2048, 64] array, accumulated from zero, at (p, j): the
    sum over the width d of a(p, d) · b(j, d). -/
theorem qk_apply (a : FVec Ideal S512x64 .bf16) (b : FVec Ideal S2048x64 .bf16) (p : Fin 512) (j : Fin 2048) :
    matmul (F := Ideal) Dqk none a b (constant (F := Ideal) S512x2048 .f32 0x00000000#32) (ix2 p j)
      = ∑ d : Fin 64, a (ix2 p d) * b (ix2 j d) := by
  refine (Ideal.matmul_constant_zero_apply Dqk none a b (ix2 p j)).trans ?_
  refine (Equiv.sum_comp (contrEquiv1 Dqk 64 rfl rfl).symm _).symm.trans ?_
  refine Finset.sum_congr rfl fun k _ => ?_
  have hk := contrEquiv1_symm_val Dqk 64 rfl rfl k
  have el : Dqk.lhsIdx (ix2 p j) ((contrEquiv1 Dqk 64 rfl rfl).symm k) = ix2 p k := funext fun ax => Fin.ext (by
    match ax with
    | ⟨0, _⟩ => exact qk_lhs0 _ _
    | ⟨1, _⟩ => exact (qk_lhs1 _ _).trans hk)
  have er : Dqk.rhsIdx (ix2 p j) ((contrEquiv1 Dqk 64 rfl rfl).symm k) = ix2 j k := funext fun ax => Fin.ext (by
    match ax with
    | ⟨0, _⟩ => exact qk_rhs0 _ _
    | ⟨1, _⟩ => exact (qk_rhs1 _ _).trans hk)
  rw [el, er]

theorem wv_lhs0 (i : S512x64.Idx) (q : Dwv.contr.Idx) : (Dwv.lhsIdx i q 0).val = (i 0).val := by
  unfold DotDims.lhsIdx
  rw [dif_neg (show ¬(0 : Fin S512x2048.rank) ∈ Dwv.lhsBatch by decide), dif_pos (show (0 : Fin S512x2048.rank) ∈ Dwv.lhsNonContracting by decide)]
  rfl
theorem wv_lhs1 (i : S512x64.Idx) (q : Dwv.contr.Idx) : (Dwv.lhsIdx i q 1).val = (q ⟨0, by decide⟩).val :=
  Dwv.lhsIdx_val_of_single rfl i q
theorem wv_rhs0 (i : S512x64.Idx) (q : Dwv.contr.Idx) : (Dwv.rhsIdx i q 0).val = (q ⟨0, by decide⟩).val :=
  Dwv.rhsIdx_val_of_single rfl i q
theorem wv_rhs1 (i : S512x64.Idx) (q : Dwv.contr.Idx) : (Dwv.rhsIdx i q 1).val = (i 1).val := by
  unfold DotDims.rhsIdx
  rw [dif_neg (show ¬(1 : Fin S2048x64.rank) ∈ Dwv.rhsBatch by decide), dif_pos (show (1 : Fin S2048x64.rank) ∈ Dwv.rhsNonContracting by decide)]
  rfl

/-- The product of a [512, 2048] array with a [2048, 64] array, accumulated from zero, at (p, d): the sum over the
    key rows j of w(p, j) · v(j, d). -/
theorem wv_apply (w : FVec Ideal S512x2048 .bf16) (v : FVec Ideal S2048x64 .bf16) (p : Fin 512) (d : Fin 64) :
    matmul (F := Ideal) Dwv none w v (constant (F := Ideal) S512x64 .f32 0x00000000#32) (ix2 p d)
      = ∑ j : Fin 2048, w (ix2 p j) * v (ix2 j d) := by
  refine (Ideal.matmul_constant_zero_apply Dwv none w v (ix2 p d)).trans ?_
  refine (Equiv.sum_comp (contrEquiv1 Dwv 2048 rfl rfl).symm _).symm.trans ?_
  refine Finset.sum_congr rfl fun k _ => ?_
  have hk := contrEquiv1_symm_val Dwv 2048 rfl rfl k
  have el : Dwv.lhsIdx (ix2 p d) ((contrEquiv1 Dwv 2048 rfl rfl).symm k) = ix2 p k := funext fun ax => Fin.ext (by
    match ax with
    | ⟨0, _⟩ => exact wv_lhs0 _ _
    | ⟨1, _⟩ => exact (wv_lhs1 _ _).trans hk)
  have er : Dwv.rhsIdx (ix2 p d) ((contrEquiv1 Dwv 2048 rfl rfl).symm k) = ix2 k d := funext fun ax => Fin.ext (by
    match ax with
    | ⟨0, _⟩ => exact (wv_rhs0 _ _).trans hk
    | ⟨1, _⟩ => exact wv_rhs1 _ _)
  rw [el, er]

/-! ## The scaled scores -/

/-- The scaled score of query row p against key row j: the dot product of the two rows, times the factor. -/
theorem score_apply (x0 : Vec Ideal S1x512x64 .bf16) (x1 : Vec Ideal S1x2048x64 .bf16)
    (h0 : S1x512x64.ShapeCasts S512x64) (h1 : S1x2048x64.ShapeCasts S2048x64) (p : Fin 512) (j : Fin 2048) :
    mulf (F := Ideal) (matmul (F := Ideal) (φ₁ := .bf16) (φ₂ := .bf16) Dqk none (shapeCast S512x64 x0 h0) (shapeCast S2048x64 x1 h1)
          (constant (F := Ideal) S512x2048 .f32 0x00000000#32))
        (broadcast S512x2048 (Scalar.ofBits (F := Ideal) .f32 0x3E000000#32)) (ix2 p j)
      = (∑ d : Fin 64, x0 (ix3 (0 : Fin 1) p d) * x1 (ix3 (0 : Fin 1) j d)) * Cert.Attn.scale := by
  refine (congrArg (· * Cert.Attn.scale) (qk_apply (shapeCast S512x64 x0 h0) (shapeCast S2048x64 x1 h1) p j)).trans ?_
  refine congrArg (· * Cert.Attn.scale) (Finset.sum_congr rfl fun d _ => ?_)
  exact congrArg₂ (· * ·) (shapeCast_1ab_ab_apply x0 h0 p d) (shapeCast_1ab_ab_apply x1 h1 j d)

/-! ## The row statistics, kept as columns and spread back across the row -/

/-- The maximum along each row, cast to a column and broadcast across the row, at (p, c): the supremum of row p. -/
theorem rowMaxCol_apply (s : FVec Ideal S512x2048 .f32) (hr : S512x2048.Reduces [1] S512) (hφ : FKind.Formats .f32)
    (hacc : (0xFF800000#32 : BitVec 32) = 0xFF800000#32) (hc : S512.ShapeCasts S512x1) (hb : S512x1.Broadcasts S512x2048)
    (p : Fin 512) (c : Fin 2048) :
    broadcastTo S512x2048 (shapeCast S512x1 (multiReduction (F := Ideal) .maximumf [1] S512 s 0xFF800000#32 hr hφ hacc) hc) hb (ix2 p c)
      = ⨆ k : Fin 2048, s (ix2 p k) :=
  (Cert.Lib.LayoutCols.broadcastTo_a1_ab_apply _ hb p c).trans
    ((Cert.Lib.LayoutCols.shapeCast_a_a1_apply _ hc p 0).trans
      ((Cert.LibReduceInf.multiReduction_maximumf_single s hr hφ hacc (ix1 p)).trans
        (iSup_congr fun k => congrArg s (funext fun ax => Fin.ext (by
          match ax with
          | ⟨0, _⟩ => rfl
          | ⟨1, _⟩ => rfl)))))

/-- The sum along each row, cast to a column and broadcast across the row, at (p, c): the sum of row p. -/
theorem rowSumCol_apply (e : FVec Ideal S512x2048 .f32) (hr : S512x2048.Reduces [1] S512) (hφ : FKind.Formats .f32)
    (hacc : (0x00000000#32 : BitVec 32) = 0x00000000#32) (hc : S512.ShapeCasts S512x1) (hb : S512x1.Broadcasts S512x2048)
    (p : Fin 512) (c : Fin 2048) :
    broadcastTo S512x2048 (shapeCast S512x1 (multiReduction (F := Ideal) .add [1] S512 e 0x00000000#32 hr hφ hacc) hc) hb (ix2 p c)
      = ∑ k : Fin 2048, e (ix2 p k) :=
  (Cert.Lib.LayoutCols.broadcastTo_a1_ab_apply _ hb p c).trans
    ((Cert.Lib.LayoutCols.shapeCast_a_a1_apply _ hc p 0).trans
      (Cert.Lib.LayoutCols.rowSum_apply e 0x00000000#32 hr hφ hacc p))

/-- Exponentials of the scores less a row statistic, over their row sums: when the statistic read on row p is the
    row's supremum and the divisor read on row p is the row's sum of exponentials, the quotient at (p, j) is the
    softmax row of row p at j. -/
theorem soft_apply (s M L : FVec Ideal S512x2048 .f32) (p : Fin 512) (j : Fin 2048)
    (hM : ∀ c : Fin 2048, M (ix2 p c) = ⨆ k : Fin 2048, s (ix2 p k))
    (hL : ∀ c : Fin 2048, L (ix2 p c) = ∑ k : Fin 2048, exp (F := Ideal) (subf (F := Ideal) s M) (ix2 p k)) :
    divf (F := Ideal) (exp (F := Ideal) (subf (F := Ideal) s M)) L (ix2 p j)
      = Cert.Attn.softRow (fun j' => s (ix2 p j')) j := by
  have hE : ∀ c : Fin 2048, exp (F := Ideal) (subf (F := Ideal) s M) (ix2 p c)
      = Ideal.exp (s (ix2 p c) - ⨆ k : Fin 2048, s (ix2 p k)) :=
    fun c => congrArg (fun m => Ideal.exp (s (ix2 p c) - m)) (hM c)
  unfold Cert.Attn.softRow
  refine congrArg₂ Ideal.div (hE j) ?_
  exact (hL j).trans (Finset.sum_congr rfl fun k _ => hE k)

/-! ## The three stored terms -/

/-- The weights of query row p against key row j: the softmax row of the scaled scores of row p. -/
theorem pay1_apply (x0 : Vec Ideal S1x512x64 .bf16) (x1 : Vec Ideal S1x2048x64 .bf16) (p : Fin 512) (j : Fin 2048) :
    k3_pay1 (F := Ideal) x0 x1 (ix2 p j)
      = Cert.Attn.softRow (fun j' => (∑ d : Fin 64, x0 (ix3 (0 : Fin 1) p d) * x1 (ix3 (0 : Fin 1) j' d)) * Cert.Attn.scale) j := by
  unfold k3_pay1
  refine (soft_apply _ _ _ p j (fun c => rowMaxCol_apply _ _ _ _ _ _ p c) (fun c => rowSumCol_apply _ _ _ _ _ _ p c)).trans ?_
  exact congrArg (fun f => Cert.Attn.softRow f j) (funext fun j' => score_apply x0 x1 _ _ p j')

/-- The stored context block at (p, d): the weights of row p against column d of the values. -/
theorem pay3_apply (x0 : Vec Ideal S1x512x64 .bf16) (x1 x2 : Vec Ideal S1x2048x64 .bf16) (u : Fin 1) (p : Fin 512) (d : Fin 64) :
    k3_pay3 (F := Ideal) x0 x1 x2 (ix3 u p d) = ∑ j : Fin 2048, k3_pay1 (F := Ideal) x0 x1 (ix2 p j) * x2 (ix3 (0 : Fin 1) j d) := by
  unfold k3_pay3
  generalize k3_pay1 (F := Ideal) x0 x1 = a
  refine (shapeCast_ab_1ab_apply _ _ u p d).trans ?_
  refine (wv_apply _ _ p d).trans ?_
  exact Finset.sum_congr rfl fun j _ => congrArg (a (ix2 p j) * ·) (shapeCast_1ab_ab_apply x2 _ j d)

end Cert.KernelIdeal.AttnPay

end
-- ==== Proof.AttnSpec.lean ====
/-
  Attention over 32 heads laid out as [32, 2048, 64] arrays, and one block of it.

  For queries Q, keys K and values V of shape [32, 2048, 64] (head, row, coordinate): the weights A(g, i, j) are the
  softmax, along j, of the scores (Σ_d Q(g, i, d)·K(g, j, d))·(1/8) of query row i of head g against every key row of the
  same head; the context C(g, i, d) is Σ_j A(g, i, j)·V(g, j, d). A block of 512 consecutive query rows of one head
  depends only on those rows of Q and on that head's K and V.
-/
import proofs.«101271_j71768903516761_2_alg».proof.KernelIdeal
import proofs.«101271_j71768903516761_2_alg».proof.Proof.Spec
import Idealize.ShloMosaic.Lib.ValueIdx
import Idealize.ShloMosaic.PureOps.Ideal

noncomputable section

namespace Cert.KernelIdeal.AttnSpec

open Cert.KernelIdeal Cert.Attn Idealize.ShloMosaic Idealize.ShloMosaic.ValueIdx

/-- The attention weights: at (g, i, j) the softmax row of the scaled scores of query row i of head g. -/
def ATT (Q K : S32x2048x64.Idx → EReal) : S32x2048x2048.Idx → EReal :=
  fun i => softRow (fun j' => (∑ d : Fin 64, Q (ix3 (n0 := 32) (n1 := 2048) (n2 := 64) (i 0) (i 1) d)
    * K (ix3 (n0 := 32) (n1 := 2048) (n2 := 64) (i 0) j' d)) * scale) (i 2)

/-- The weights read at an index built from coordinates. -/
theorem ATT_apply (Q K : S32x2048x64.Idx → EReal) (g : Fin 32) (i j : Fin 2048) :
    ATT Q K (ix3 g i j) = softRow (fun j' => (∑ d : Fin 64, Q (ix3 g i d) * K (ix3 g j' d)) * scale) j := rfl

/-- The context: at (g, i, d) the weights of row i of head g against column d of that head's values. -/
def CTX (Q K V : S32x2048x64.Idx → EReal) : S32x2048x64.Idx → EReal :=
  fun i => ∑ j : Fin 2048, ATT Q K (ix3 (n0 := 32) (n1 := 2048) (n2 := 2048) (i 0) (i 1) j)
    * V (ix3 (n0 := 32) (n1 := 2048) (n2 := 64) (i 0) j (i 2))

/-- The context read at an index built from coordinates. -/
theorem CTX_apply (Q K V : S32x2048x64.Idx → EReal) (g : Fin 32) (i : Fin 2048) (d : Fin 64) :
    CTX Q K V (ix3 g i d) = ∑ j : Fin 2048, ATT Q K (ix3 g i j) * V (ix3 g j d) := rfl

/-- A [1, 512, 2048] block whose row p is the softmax row of the scaled scores of the block's query row p against the
    block's keys is, at j, the weights at i, when the block's queries are rows r₀ … of head g of Q, its keys are head g of
    K, and i is j at head g moved down by r₀ rows. -/
theorem att_block_eq (x0 : S1x512x64.Idx → EReal) (x1 : S1x2048x64.Idx → EReal) (Q K : S32x2048x64.Idx → EReal)
    (g : Fin 32) (r₀ : ℕ) (j : S1x512x2048.Idx) (i : S32x2048x2048.Idx)
    (hx0 : ∀ (p : Fin 512) (d : Fin 64) (r : Fin 2048), r.val = r₀ + p.val → x0 (ix3 (0 : Fin 1) p d) = Q (ix3 g r d))
    (hx1 : ∀ (j' : Fin 2048) (d : Fin 64), x1 (ix3 (0 : Fin 1) j' d) = K (ix3 g j' d))
    (hi0 : (i 0).val = g.val) (hi1 : (i 1).val = r₀ + (j 1).val) (hi2 : (i 2).val = (j 2).val)
    {pay : S1x512x2048.Idx → EReal}
    (hpay : ∀ (u : Fin 1) (p : Fin 512) (j' : Fin 2048), pay (ix3 u p j')
      = softRow (fun j'' => (∑ d : Fin 64, x0 (ix3 (0 : Fin 1) p d) * x1 (ix3 (0 : Fin 1) j'' d)) * scale) j') :
    pay j = ATT Q K i := by
  obtain ⟨u, p, c, rfl⟩ : ∃ (u : Fin 1) (p : Fin 512) (c : Fin 2048), j = ix3 u p c := ⟨j 0, j 1, j 2, eq_ix3 j⟩
  obtain ⟨g', r, c', rfl⟩ : ∃ (g' : Fin 32) (r c' : Fin 2048), i = ix3 g' r c' := ⟨i 0, i 1, i 2, eq_ix3 i⟩
  have hg : g' = g := Fin.ext hi0
  have hr : r.val = r₀ + p.val := hi1
  have hc : c' = c := Fin.ext hi2
  subst hg hc
  rw [hpay, ATT_apply]
  refine congrArg (fun s => softRow s c') (funext fun j'' => ?_)
  refine congrArg (· * scale) (Finset.sum_congr rfl fun d _ => ?_)
  rw [hx0 p d r hr, hx1 j'' d]

/-- A [1, 512, 64] block whose entry (p, d) is the sum over key rows of the block's weights times the block's values is,
    at j, the context at i, when the block's weights are rows r₀ … of head g of the weights of Q and K and its values are
    head g of V. -/
theorem ctx_block_eq (a : S512x2048.Idx → EReal) (x2 : S1x2048x64.Idx → EReal) (Q K V : S32x2048x64.Idx → EReal)
    (g : Fin 32) (r₀ : ℕ) (j : S1x512x64.Idx) (i : S32x2048x64.Idx)
    (ha : ∀ (p : Fin 512) (j' : Fin 2048) (r : Fin 2048), r.val = r₀ + p.val → a (ix2 p j') = ATT Q K (ix3 g r j'))
    (hx2 : ∀ (j' : Fin 2048) (d : Fin 64), x2 (ix3 (0 : Fin 1) j' d) = V (ix3 g j' d))
    (hi0 : (i 0).val = g.val) (hi1 : (i 1).val = r₀ + (j 1).val) (hi2 : (i 2).val = (j 2).val)
    {pay : S1x512x64.Idx → EReal}
    (hpay : ∀ (u : Fin 1) (p : Fin 512) (d : Fin 64), pay (ix3 u p d) = ∑ j' : Fin 2048, a (ix2 p j') * x2 (ix3 (0 : Fin 1) j' d)) :
    pay j = CTX Q K V i := by
  obtain ⟨u, p, c, rfl⟩ : ∃ (u : Fin 1) (p : Fin 512) (c : Fin 64), j = ix3 u p c := ⟨j 0, j 1, j 2, eq_ix3 j⟩
  obtain ⟨g', r, c', rfl⟩ : ∃ (g' : Fin 32) (r : Fin 2048) (c' : Fin 64), i = ix3 g' r c' := ⟨i 0, i 1, i 2, eq_ix3 i⟩
  have hg : g' = g := Fin.ext hi0
  have hr : r.val = r₀ + p.val := hi1
  have hc : c' = c := Fin.ext hi2
  subst hg hc
  rw [hpay, CTX_apply]
  refine Finset.sum_congr rfl fun j' _ => ?_
  rw [ha p j' r hr, hx2 j' c']

end Cert.KernelIdeal.AttnSpec

end
-- ==== Proof.Reg3.lean ====
/-
  The attention region: the two arrays it leaves.

  The region walks 32 × 4 grid points; point t = 4·g + q handles head g and the block of query rows 512·q … 512·q + 511. It
  loads that block of the queries and the whole [2048, 64] keys and values of head g, and writes back the block's
  attention weights as rows 512·q … of head g of the [32, 2048, 2048] weights array and the block's context as the same
  rows of head g of the [32, 2048, 64] context array. The blocks tile both arrays, so the arrays end holding the weights
  and the context of the queries, keys and values the region found on entry.
-/
import proofs.«101271_j71768903516761_2_alg».proof.Proof.Gen.KernelIdeal.Frame
import proofs.«101271_j71768903516761_2_alg».proof.Proof.AttnPay
import proofs.«101271_j71768903516761_2_alg».proof.Proof.AttnSpec

set_option maxRecDepth 16384

noncomputable section

namespace Cert.KernelIdeal.Reg3

open Cert.KernelIdeal Cert.KernelIdeal.Gen Cert.KernelIdeal.AttnSpec Cert.Attn
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem hz : (![0, 0, 0] : Fin 3 → Nat) = fun _ => 0 := funext fun a => by fin_cases a <;> rfl

/-- The printed index maps over the grid: point t is head t / 4 and row block t % 4; the queries and both results move
    with both, the keys and the values with the head only. -/
theorem idx_facts : ∀ t : Fin cfg3.N, win3_0.index t (0 : Fin 3) = t.val / 4 ∧ win3_0.index t (1 : Fin 3) = t.val % 4 ∧ win3_0.index t (2 : Fin 3) = 0
    ∧ win3_1.index t (0 : Fin 3) = t.val / 4 ∧ win3_1.index t (1 : Fin 3) = 0 ∧ win3_1.index t (2 : Fin 3) = 0
    ∧ win3_2.index t (0 : Fin 3) = t.val / 4 ∧ win3_2.index t (1 : Fin 3) = 0 ∧ win3_2.index t (2 : Fin 3) = 0
    ∧ win3_3.index t (0 : Fin 3) = t.val / 4 ∧ win3_3.index t (1 : Fin 3) = t.val % 4 ∧ win3_3.index t (2 : Fin 3) = 0
    ∧ win3_4.index t (0 : Fin 3) = t.val / 4 ∧ win3_4.index t (1 : Fin 3) = t.val % 4 ∧ win3_4.index t (2 : Fin 3) = 0 :=
  (by decide +kernel : ∀ t : Fin grid3.N, _)

/-- A point's head is one of the 32. -/
theorem head_lt (t : Fin cfg3.N) : t.val / 4 < 32 := by
  have := t.isLt; have hN : grid3.N = 128 := N_3
  have ht : t.val < 128 := hN ▸ this
  omega

/-- Point t's block of queries: rows 512·(t % 4) … of head t / 4. -/
theorem blkQ (c : Dev nD) (t : Fin cfg3.N) (p : Fin 512) (d : Fin 64) (r : Fin 2048) (hr : r.val = 512 * (t.val % 4) + p.val) :
    iblk3 V c 0 t (ix3 (0 : Fin 1) p d) = V c main_call0_v8 (ix3 (⟨t.val / 4, head_lt t⟩ : Fin 32) r d) := by
  obtain ⟨q0, q1, q2, k0, k1, k2, v0, v1, v2, c0, c1, c2, a0, a1, a2⟩ := idx_facts t
  show V c main_call0_v8 (((cfg3.win 0).blk t).view.emb (ix3 (0 : Fin 1) p d)) = V c main_call0_v8 (ix3 (⟨t.val / 4, head_lt t⟩ : Fin 32) r d)
  refine congrArg (V c main_call0_v8) (funext fun a => Fin.ext ?_)
  match a with
  | ⟨0, _⟩ => show win3_0.index t (0 : Fin 3) * 1 + 1 * 0 = t.val / 4; omega
  | ⟨1, _⟩ => show win3_0.index t (1 : Fin 3) * 512 + 1 * p.val = r.val; omega
  | ⟨2, _⟩ => show win3_0.index t (2 : Fin 3) * 64 + 1 * d.val = d.val; omega

/-- Point t's keys: head t / 4, whole. -/
theorem blkK (c : Dev nD) (t : Fin cfg3.N) (j' : Fin 2048) (d : Fin 64) :
    iblk3 V c 1 t (ix3 (0 : Fin 1) j' d) = V c main_call0_v11 (ix3 (⟨t.val / 4, head_lt t⟩ : Fin 32) j' d) := by
  obtain ⟨q0, q1, q2, k0, k1, k2, v0, v1, v2, c0, c1, c2, a0, a1, a2⟩ := idx_facts t
  show V c main_call0_v11 (((cfg3.win 1).blk t).view.emb (ix3 (0 : Fin 1) j' d)) = V c main_call0_v11 (ix3 (⟨t.val / 4, head_lt t⟩ : Fin 32) j' d)
  refine congrArg (V c main_call0_v11) (funext fun a => Fin.ext ?_)
  match a with
  | ⟨0, _⟩ => show win3_1.index t (0 : Fin 3) * 1 + 1 * 0 = t.val / 4; omega
  | ⟨1, _⟩ => show win3_1.index t (1 : Fin 3) * 2048 + 1 * j'.val = j'.val; omega
  | ⟨2, _⟩ => show win3_1.index t (2 : Fin 3) * 64 + 1 * d.val = d.val; omega

/-- Point t's values: head t / 4, whole. -/
theorem blkV (c : Dev nD) (t : Fin cfg3.N) (j' : Fin 2048) (d : Fin 64) :
    iblk3 V c 2 t (ix3 (0 : Fin 1) j' d) = V c main_call0_v14 (ix3 (⟨t.val / 4, head_lt t⟩ : Fin 32) j' d) := by
  obtain ⟨q0, q1, q2, k0, k1, k2, v0, v1, v2, c0, c1, c2, a0, a1, a2⟩ := idx_facts t
  show V c main_call0_v14 (((cfg3.win 2).blk t).view.emb (ix3 (0 : Fin 1) j' d)) = V c main_call0_v14 (ix3 (⟨t.val / 4, head_lt t⟩ : Fin 32) j' d)
  refine congrArg (V c main_call0_v14) (funext fun a => Fin.ext ?_)
  match a with
  | ⟨0, _⟩ => show win3_2.index t (0 : Fin 3) * 1 + 1 * 0 = t.val / 4; omega
  | ⟨1, _⟩ => show win3_2.index t (1 : Fin 3) * 2048 + 1 * j'.val = j'.val; omega
  | ⟨2, _⟩ => show win3_2.index t (2 : Fin 3) * 64 + 1 * d.val = d.val; omega

/-- WHAT POINT t WRITES BACK to the weights array is block t of the weights of the queries and keys the region found. -/
theorem flushed_att (c : Dev nD) (t : Fin cfg3.N) :
    (dat3 V c).flushed 4 t = ((cfg3.win 4).blk t).view.read (Elt Ideal) (ATT (V c main_call0_v8) (V c main_call0_v11)) := by
  show (cfg3.win 4).cut (grid3.coords t) ((dat3 V c).after 4 t) = _
  rw [after3_4]
  unfold out3_4
  rw [View.canon_unit_zero hz]
  simp only [View.ld_unit_zero (S := S1x512x64) hz, View.ld_unit_zero (S := S1x2048x64) hz]
  obtain ⟨q0, q1, q2, k0, k1, k2, v0, v1, v2, c0, c1, c2, a0, a1, a2⟩ := idx_facts t
  funext j
  show k3_pay2 (F := Ideal) (iblk3 V c 0 t) (iblk3 V c 1 t) j = ATT (V c main_call0_v8) (V c main_call0_v11) (((cfg3.win 4).blk t).view.emb j)
  have hj0 : (j 0).val < 1 := (j 0).isLt
  refine att_block_eq (iblk3 V c 0 t) (iblk3 V c 1 t) (V c main_call0_v8) (V c main_call0_v11) (⟨t.val / 4, head_lt t⟩ : Fin 32) (512 * (t.val % 4)) j _
    (fun p d r hr => blkQ V c t p d r hr) (fun j' d => blkK V c t j' d) ?_ ?_ ?_
    (fun u p j' => (AttnPay.pay2_apply (iblk3 V c 0 t) (iblk3 V c 1 t) u p j').trans (AttnPay.pay1_apply (iblk3 V c 0 t) (iblk3 V c 1 t) p j'))
  · show win3_4.index t (0 : Fin 3) * 1 + 1 * (j 0).val = t.val / 4; omega
  · show win3_4.index t (1 : Fin 3) * 512 + 1 * (j 1).val = 512 * (t.val % 4) + (j 1).val; omega
  · show win3_4.index t (2 : Fin 3) * 2048 + 1 * (j 2).val = (j 2).val; omega

/-- The block's weights are rows 512·(t % 4) … of head t / 4 of the weights. -/
theorem blkA (c : Dev nD) (t : Fin cfg3.N) (p : Fin 512) (j' : Fin 2048) (r : Fin 2048) (hr : r.val = 512 * (t.val % 4) + p.val) :
    k3_pay1 (F := Ideal) (iblk3 V c 0 t) (iblk3 V c 1 t) (ix2 p j')
      = ATT (V c main_call0_v8) (V c main_call0_v11) (ix3 (⟨t.val / 4, head_lt t⟩ : Fin 32) r j') := by
  refine (AttnPay.pay1_apply (iblk3 V c 0 t) (iblk3 V c 1 t) p j').trans ?_
  rw [ATT_apply]
  refine congrArg (fun s => softRow s j') (funext fun j'' => congrArg (· * scale) (Finset.sum_congr rfl fun d _ => ?_))
  rw [blkQ V c t p d r hr, blkK V c t j'' d]

/-- WHAT POINT t WRITES BACK to the context array is block t of the context of the queries, keys and values the region
    found. -/
theorem flushed_ctx (c : Dev nD) (t : Fin cfg3.N) :
    (dat3 V c).flushed 3 t = ((cfg3.win 3).blk t).view.read (Elt Ideal) (CTX (V c main_call0_v8) (V c main_call0_v11) (V c main_call0_v14)) := by
  show (cfg3.win 3).cut (grid3.coords t) ((dat3 V c).after 3 t) = _
  rw [after3_3]
  unfold out3_3
  rw [View.canon_unit_zero hz]
  simp only [View.ld_unit_zero (S := S1x512x64) hz, View.ld_unit_zero (S := S1x2048x64) hz]
  obtain ⟨q0, q1, q2, k0, k1, k2, v0, v1, v2, c0, c1, c2, a0, a1, a2⟩ := idx_facts t
  funext j
  show k3_pay3 (F := Ideal) (iblk3 V c 0 t) (iblk3 V c 1 t) (iblk3 V c 2 t) j
    = CTX (V c main_call0_v8) (V c main_call0_v11) (V c main_call0_v14) (((cfg3.win 3).blk t).view.emb j)
  have hj0 : (j 0).val < 1 := (j 0).isLt
  refine ctx_block_eq (k3_pay1 (F := Ideal) (iblk3 V c 0 t) (iblk3 V c 1 t)) (iblk3 V c 2 t) (V c main_call0_v8) (V c main_call0_v11) (V c main_call0_v14)
    (⟨t.val / 4, head_lt t⟩ : Fin 32) (512 * (t.val % 4)) j _
    (fun p j' r hr => blkA V c t p j' r hr) (fun j' d => blkV V c t j' d) ?_ ?_ ?_
    (fun u p d => AttnPay.pay3_apply (iblk3 V c 0 t) (iblk3 V c 1 t) (iblk3 V c 2 t) u p d)
  · show win3_3.index t (0 : Fin 3) * 1 + 1 * (j 0).val = t.val / 4; omega
  · show win3_3.index t (1 : Fin 3) * 512 + 1 * (j 1).val = 512 * (t.val % 4) + (j 1).val; omega
  · show win3_3.index t (2 : Fin 3) * 64 + 1 * (j 2).val = (j 2).val; omega

/-- An index of the weights array is in point t's block iff each coordinate is in the block's range on its axis. -/
theorem mem_blk4 (t : Fin cfg3.N) (i : S32x2048x2048.Idx) :
    i ∈ ((cfg3.win 4).blk t).view.set ↔ ∀ a : Fin 3, win3_4.index t a * S1x512x2048.size a ≤ (i a).val ∧ (i a).val < win3_4.index t a * S1x512x2048.size a + S1x512x2048.size a := by
  show i ∈ ((View.whole main_call0_v15_1).slice (win3_4.rect t)).set ↔ _
  rw [View.set_slice_whole, Rect.mem_set_unit]
  exact Iff.rfl

/-- Every index of the weights array is in the block of the point that owns its head and its row: head g, row r belong to
    point 4·g + r / 512. -/
theorem cover4 (i : S32x2048x2048.Idx) : ∃ t : Fin cfg3.N, (cfg3.win 4).flush t = true ∧ i ∈ ((cfg3.win 4).blk t).view.set := by
  have hi0 : (i 0).val < 32 := (i 0).isLt
  have hi1 : (i 1).val < 2048 := (i 1).isLt
  have hi2 : (i 2).val < 2048 := (i 2).isLt
  have hN : grid3.N = 128 := N_3
  let t : Fin cfg3.N := ⟨(i 0).val * 4 + (i 1).val / 512, by show (i 0).val * 4 + (i 1).val / 512 < grid3.N; omega⟩
  have htv : t.val = (i 0).val * 4 + (i 1).val / 512 := rfl
  obtain ⟨q0, q1, q2, k0, k1, k2, v0, v1, v2, c0, c1, c2, a0, a1, a2⟩ := idx_facts t
  refine ⟨t, flush3_4 t, ?_⟩
  rw [mem_blk4]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 512 ≤ (i 1).val ∧ (i 1).val < win3_4.index t (1 : Fin 3) * 512 + 512; omega
  | ⟨2, _⟩ => show win3_4.index t (2 : Fin 3) * 2048 ≤ (i 2).val ∧ (i 2).val < win3_4.index t (2 : Fin 3) * 2048 + 2048; omega

/-- An index of the context array is in point t's block iff each coordinate is in the block's range on its axis. -/
theorem mem_blk3 (t : Fin cfg3.N) (i : S32x2048x64.Idx) :
    i ∈ ((cfg3.win 3).blk t).view.set ↔ ∀ a : Fin 3, win3_3.index t a * S1x512x64.size a ≤ (i a).val ∧ (i a).val < win3_3.index t a * S1x512x64.size a + S1x512x64.size a := by
  show i ∈ ((View.whole main_call0_v15_0).slice (win3_3.rect t)).set ↔ _
  rw [View.set_slice_whole, Rect.mem_set_unit]
  exact Iff.rfl

/-- Every index of the context array is in the block of the point that owns its head and its row: head g, row r belong to
    point 4·g + r / 512. -/
theorem cover3 (i : S32x2048x64.Idx) : ∃ t : Fin cfg3.N, (cfg3.win 3).flush t = true ∧ i ∈ ((cfg3.win 3).blk t).view.set := by
  have hi0 : (i 0).val < 32 := (i 0).isLt
  have hi1 : (i 1).val < 2048 := (i 1).isLt
  have hi2 : (i 2).val < 64 := (i 2).isLt
  have hN : grid3.N = 128 := N_3
  let t : Fin cfg3.N := ⟨(i 0).val * 4 + (i 1).val / 512, by show (i 0).val * 4 + (i 1).val / 512 < grid3.N; omega⟩
  have htv : t.val = (i 0).val * 4 + (i 1).val / 512 := rfl
  obtain ⟨q0, q1, q2, k0, k1, k2, v0, v1, v2, c0, c1, c2, a0, a1, a2⟩ := idx_facts t
  refine ⟨t, flush3_3 t, ?_⟩
  rw [mem_blk3]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 512 ≤ (i 1).val ∧ (i 1).val < win3_3.index t (1 : Fin 3) * 512 + 512; omega
  | ⟨2, _⟩ => show win3_3.index t (2 : Fin 3) * 64 ≤ (i 2).val ∧ (i 2).val < win3_3.index t (2 : Fin 3) * 64 + 64; omega

/-- THE WEIGHTS ARRAY after the region: the attention weights of the queries and keys as the region found them. -/
theorem final_att (c : Dev nD) : (dat3 V c).arrAt 4 cfg3.N = ATT (V c main_call0_v8) (V c main_call0_v11) :=
  (dat3 V c).arrAt_eq_of_cover 4 (ATT (V c main_call0_v8) (V c main_call0_v11)) (fun t _ => flushed_att V c t) (cover4)

/-- THE CONTEXT ARRAY after the region: the context of the queries, keys and values as the region found them. -/
theorem final_ctx (c : Dev nD) : (dat3 V c).arrAt 3 cfg3.N = CTX (V c main_call0_v8) (V c main_call0_v11) (V c main_call0_v14) :=
  (dat3 V c).arrAt_eq_of_cover 3 (CTX (V c main_call0_v8) (V c main_call0_v11) (V c main_call0_v14)) (fun t _ => flushed_ctx V c t) (cover3)

end Cert.KernelIdeal.Reg3

end
-- ==== Proof.Reg4.lean ====
/-
  Projection region 4: the array it leaves.

  The region walks four grid points; point t loads rows 1024·t … 1024·t + 1023 of the [4096, 1024] row array and the whole
  [1024, 1024] weight matrix, and writes back the product of that block of rows with the transposed weights as rows
  1024·t … of the [4096, 1024] result. The four blocks tile the result, so the result array ends holding, at (r, e), the
  sum over k of rows(r, k) · weights(e, k) — one function of the arrays the region found on entry.
-/
import proofs.«101271_j71768903516761_2_alg».proof.Proof.Gen.KernelIdeal.Frame
import proofs.«101271_j71768903516761_2_alg».proof.Proof.ProjPay
import proofs.«101271_j71768903516761_2_alg».proof.Proof.ProjSpec

set_option maxRecDepth 16384

noncomputable section

namespace Cert.KernelIdeal.Reg4

open Cert.KernelIdeal Cert.KernelIdeal.Gen Cert.KernelIdeal.ProjSpec
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row array and the result move one block of rows per point, the weights
    stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- WHAT POINT t WRITES BACK is block t of the product of the row array with the transposed weights. -/
theorem flushed_eq (c : Dev nD) (t : Fin cfg4.N) :
    (dat4 V c).flushed 2 t = ((cfg4.win 2).blk t).view.read (Elt Ideal) (PJ (V c main_call0_v19) (V c main_arg6)) := by
  show (cfg4.win 2).cut (grid4.coords t) ((dat4 V c).after 2 t) = _
  rw [after4_2]
  unfold out4_2
  rw [View.canon_unit_zero hz]
  simp only [View.ld_unit_zero (S := S1024x1024) hz]
  obtain ⟨e0, e1, e2, e3, e4, e5⟩ := idx_facts t
  funext j
  show k4_pay1 (F := Ideal) (iblk4 V c 0 t) (iblk4 V c 1 t) j = PJ (V c main_call0_v19) (V c main_arg6) (((cfg4.win 2).blk t).view.emb j)
  have ht : t.val < 4 := by have := t.isLt; have hN : grid4.N = 4 := N_4; exact hN ▸ this
  refine block_eq (iblk4 V c 0 t) (iblk4 V c 1 t) (V c main_call0_v19) (V c main_arg6) (1024 * t.val) j _ ?_ ?_ ?_ ?_ (ProjPay.pay4_apply _ _)
  · intro p k r hr
    show V c main_call0_v19 (((cfg4.win 0).blk t).view.emb (ix2 p k)) = V c main_call0_v19 (ix2 r k)
    refine congrArg (V c main_call0_v19) (funext fun a => Fin.ext ?_)
    match a with
    | ⟨0, _⟩ => show win4_0.index t (0 : Fin 2) * 1024 + 1 * p.val = r.val; omega
    | ⟨1, _⟩ => show win4_0.index t (1 : Fin 2) * 1024 + 1 * k.val = k.val; omega
  · intro e k
    show V c main_arg6 (((cfg4.win 1).blk t).view.emb (ix2 e k)) = V c main_arg6 (ix2 e k)
    refine congrArg (V c main_arg6) (funext fun a => Fin.ext ?_)
    match a with
    | ⟨0, _⟩ => show win4_1.index t (0 : Fin 2) * 1024 + 1 * e.val = e.val; omega
    | ⟨1, _⟩ => show win4_1.index t (1 : Fin 2) * 1024 + 1 * k.val = k.val; omega
  · show win4_2.index t (0 : Fin 2) * 1024 + 1 * (j 0).val = 1024 * t.val + (j 0).val; omega
  · show win4_2.index t (1 : Fin 2) * 1024 + 1 * (j 1).val = (j 1).val; omega

/-- An index of the result is in point t's block iff each coordinate is in the block's range on its axis. -/
theorem mem_blk (t : Fin cfg4.N) (i : S4096x1024.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_call0_v20).slice (win4_2.rect t)).set ↔ _
  rw [View.set_slice_whole, Rect.mem_set_unit]
  exact Iff.rfl

/-- Every index of the result is in the block of the point that owns its row: row r belongs to point r / 1024. -/
theorem cover (i : S4096x1024.Idx) : ∃ t : Fin cfg4.N, (cfg4.win 2).flush t = true ∧ i ∈ ((cfg4.win 2).blk t).view.set := by
  have hi0 : (i 0).val < 4096 := (i 0).isLt
  have hi1 : (i 1).val < 1024 := (i 1).isLt
  have hN : grid4.N = 4 := N_4
  let t : Fin cfg4.N := ⟨(i 0).val / 1024, by show (i 0).val / 1024 < grid4.N; omega⟩
  have htv : t.val = (i 0).val / 1024 := rfl
  obtain ⟨e0, e1, e2, e3, e4, e5⟩ := idx_facts t
  refine ⟨t, flush4_2 t, ?_⟩
  rw [mem_blk]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 1024 ≤ (i 1).val ∧ (i 1).val < win4_2.index t (1 : Fin 2) * 1024 + 1024; omega

/-- THE RESULT ARRAY after the region: the product of the row array with the transposed weights, as the region found them. -/
theorem final (c : Dev nD) : (dat4 V c).arrAt 2 cfg4.N = PJ (V c main_call0_v19) (V c main_arg6) :=
  (dat4 V c).arrAt_eq_of_cover 2 (PJ (V c main_call0_v19) (V c main_arg6)) (fun t _ => flushed_eq V c t) (cover)

end Cert.KernelIdeal.Reg4

end
-- ==== Proof.HostStretch.lean ====
/-
  What each stretch of host operations of the idealized kernel program leaves in the buffers the kernel regions read,
  as a function of whatever the buffers hold when the stretch starts.

  A stretch is a short line of layout operations: casts between shapes with the same number of entries (the entries keep
  their row-major order) and one transposition of the two middle axes of a rank-four array. None changes an entry; each
  writes one buffer from one buffer. So the buffer a stretch ends in holds the composition of its casts and its
  transposition applied to the contents of the buffer the stretch starts from, and every buffer no operation of the
  stretch writes holds what it held before.
-/
import proofs.«101271_j71768903516761_2_alg».proof.Proof.Gen.KernelIdeal.Launch
import Idealize.ShloMosaic.Lib.StableHlo.Run
import Idealize.ShloMosaic.PureOps.Ideal

noncomputable section

namespace Cert.KernelIdeal.HostStretch

open Cert.KernelIdeal Cert.KernelIdeal.Gen Idealize.ShloMosaic Idealize.ShloMosaic.TcCoe Idealize.SL.Sem

variable (W : Valuation τ sig (Elt Ideal))

/-! ## The first stretch: each argument cast from [2, 2048, 1024] to [4096, 1024] -/

theorem h0_v0 : StableHlo.after (hostOps0 (F := Ideal)) W (Proc.devRef .tc main_call0_v0)
    = shapeCast S4096x1024 (W (Proc.devRef .tc main_arg0)) shapeCasts_S2x2048x1024_S4096x1024 := by
  after_results
  rfl

theorem h0_v1 : StableHlo.after (hostOps0 (F := Ideal)) W (Proc.devRef .tc main_call0_v1)
    = shapeCast S4096x1024 (W (Proc.devRef .tc main_arg1)) shapeCasts_S2x2048x1024_S4096x1024 := by
  after_results
  rfl

theorem h0_v2 : StableHlo.after (hostOps0 (F := Ideal)) W (Proc.devRef .tc main_call0_v2)
    = shapeCast S4096x1024 (W (Proc.devRef .tc main_arg2)) shapeCasts_S2x2048x1024_S4096x1024 := by
  after_results
  rfl

/-- A buffer the stretch does not write keeps its contents. -/
theorem h0_keep (b : Ref sig .tc) (h0 : b ≠ main_call0_v0) (h1 : b ≠ main_call0_v1) (h2 : b ≠ main_call0_v2) :
    StableHlo.after (hostOps0 (F := Ideal)) W (Proc.devRef .tc b) = W (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

/-! ## The stretch before the attention region: each projection split into heads

  A [4096, 1024] array is cast to [2, 2048, 16, 64], its two middle axes are exchanged, and the result is cast to
  [32, 2048, 64]: one [2048, 64] block per batch entry and head. -/

theorem h3_v8 : StableHlo.after (hostOps3 (F := Ideal)) W (Proc.devRef .tc main_call0_v8)
    = shapeCast S32x2048x64 (transpose S2x16x2048x64 [0, 2, 1, 3]
        (shapeCast S2x2048x16x64 (W (Proc.devRef .tc main_call0_v3)) shapeCasts_S4096x1024_S2x2048x16x64)
        transposes_S2x2048x16x64_S2x16x2048x64_0_2_1_3) shapeCasts_S2x16x2048x64_S32x2048x64 := by
  after_results
  rfl

theorem h3_v11 : StableHlo.after (hostOps3 (F := Ideal)) W (Proc.devRef .tc main_call0_v11)
    = shapeCast S32x2048x64 (transpose S2x16x2048x64 [0, 2, 1, 3]
        (shapeCast S2x2048x16x64 (W (Proc.devRef .tc main_call0_v4)) shapeCasts_S4096x1024_S2x2048x16x64)
        transposes_S2x2048x16x64_S2x16x2048x64_0_2_1_3) shapeCasts_S2x16x2048x64_S32x2048x64 := by
  after_results
  rfl

theorem h3_v14 : StableHlo.after (hostOps3 (F := Ideal)) W (Proc.devRef .tc main_call0_v14)
    = shapeCast S32x2048x64 (transpose S2x16x2048x64 [0, 2, 1, 3]
        (shapeCast S2x2048x16x64 (W (Proc.devRef .tc main_call0_v5)) shapeCasts_S4096x1024_S2x2048x16x64)
        transposes_S2x2048x16x64_S2x16x2048x64_0_2_1_3) shapeCasts_S2x16x2048x64_S32x2048x64 := by
  after_results
  rfl

/-- A buffer the stretch does not write keeps its contents. -/
theorem h3_keep (b : Ref sig .tc) (h : b ∉ ([main_call0_v6, main_call0_v7, main_call0_v8, main_call0_v9, main_call0_v10, main_call0_v11, main_call0_v12, main_call0_v13, main_call0_v14] : List (Ref sig .tc))) :
    StableHlo.after (hostOps3 (F := Ideal)) W (Proc.devRef .tc b) = W (Proc.devRef .tc b) := by
  have hne : ∀ y ∈ ([main_call0_v6, main_call0_v7, main_call0_v8, main_call0_v9, main_call0_v10, main_call0_v11, main_call0_v12, main_call0_v13, main_call0_v14] : List (Ref sig .tc)), b ≠ y :=
    fun y hy e => h (e ▸ hy)
  exact StableHlo.after_of_forall_not_mem (b := Proc.devRef .tc b) _ _ (List.forall_iff_forall_mem.mp (by
    simp only [hostOps3, List.Forall, StableHlo.unary_writes, StableHlo.reshape_writes, Finset.mem_singleton]
    exact ⟨StableHlo.devRef_ne_of_ne (hne _ (by decide)), StableHlo.devRef_ne_of_ne (hne _ (by decide)),
      StableHlo.devRef_ne_of_ne (hne _ (by decide)), StableHlo.devRef_ne_of_ne (hne _ (by decide)),
      StableHlo.devRef_ne_of_ne (hne _ (by decide)), StableHlo.devRef_ne_of_ne (hne _ (by decide)),
      StableHlo.devRef_ne_of_ne (hne _ (by decide)), StableHlo.devRef_ne_of_ne (hne _ (by decide)),
      StableHlo.devRef_ne_of_ne (hne _ (by decide))⟩))

/-! ## The stretch after the attention region: the heads merged back

  The [32, 2048, 64] context is cast to [2, 16, 2048, 64], its two middle axes are exchanged, and the result is cast to
  [2, 2048, 1024] and then to [4096, 1024]. -/

theorem h4_v19 : StableHlo.after (hostOps4 (F := Ideal)) W (Proc.devRef .tc main_call0_v19)
    = shapeCast S4096x1024 (shapeCast S2x2048x1024 (transpose S2x2048x16x64 [0, 2, 1, 3]
        (shapeCast S2x16x2048x64 (W (Proc.devRef .tc main_call0_v15_0)) shapeCasts_S32x2048x64_S2x16x2048x64)
        transposes_S2x16x2048x64_S2x2048x16x64_0_2_1_3) shapeCasts_S2x2048x16x64_S2x2048x1024) shapeCasts_S2x2048x1024_S4096x1024 := by
  after_results
  rfl

/-- A buffer the stretch does not write keeps its contents. -/
theorem h4_keep (b : Ref sig .tc) (h16 : b ≠ main_call0_v16) (h17 : b ≠ main_call0_v17) (h18 : b ≠ main_call0_v18) (h19 : b ≠ main_call0_v19) :
    StableHlo.after (hostOps4 (F := Ideal)) W (Proc.devRef .tc b) = W (Proc.devRef .tc b) :=
  StableHlo.after_of_forall_not_mem (b := Proc.devRef .tc b) _ _ (List.forall_iff_forall_mem.mp (by
    simp only [hostOps4, List.Forall, StableHlo.unary_writes, StableHlo.reshape_writes, Finset.mem_singleton]
    exact ⟨StableHlo.devRef_ne_of_ne h16, StableHlo.devRef_ne_of_ne h17, StableHlo.devRef_ne_of_ne h18, StableHlo.devRef_ne_of_ne h19⟩))

/-! ## The last stretch: the two results cast to the shapes they are returned in -/

theorem h5_out0 : StableHlo.after (hostOps5 (F := Ideal)) W (Proc.devRef .tc main_v0_0)
    = shapeCast S2x2048x1024 (W (Proc.devRef .tc main_call0_v20)) shapeCasts_S4096x1024_S2x2048x1024 := by
  after_results
  rfl

theorem h5_out1 : StableHlo.after (hostOps5 (F := Ideal)) W (Proc.devRef .tc main_v0_1)
    = shapeCast S2x16x2048x2048 (W (Proc.devRef .tc main_call0_v15_1)) shapeCasts_S32x2048x2048_S2x16x2048x2048 := by
  after_results
  rfl

end Cert.KernelIdeal.HostStretch

end
-- ==== Proof.LibReduceAxis.lean ====
/-
  A host maximum reduction over one axis read at the extended reals as a supremum over that axis's coordinates.

  At the exact values a float maximum is `max`, and the pattern of `-∞` is the bottom element, so a host reduction with a
  maximum body from `-∞` along ONE axis is, at a result index `j`, the supremum over the axis's coordinates `k` of the operand
  at `j` with `k` inserted; likewise a minimum body from `+∞` gives the infimum. General: no program is mentioned.
-/
import proofs.«101271_j71768903516761_2_alg».proof.Proof.LibReduceInf
import Idealize.ShloMosaic.PureOps.Reduce

noncomputable section

namespace Cert.LibReduceAxis

open Idealize.ShloMosaic Idealize.ShloMosaic.ValueIdx Cert.LibReduceInf

/-- A host reduction with a maximum body from `-∞` over ONE axis, at a result index `j`: the supremum over that axis's
    coordinates `k` of the operand at `j` with `k` inserted. -/
theorem hostReduce_maximumf_single {s t u : Shape} {a : Fin s.rank} (x : s.Idx → EReal)
    (h' : s.ReducesTo [a] t) (h : s.Reduces [a] t) (hu : 0 < u.numel) (j : t.Idx) :
    Host.reduce (FloatOps.maximumf (F := Ideal) (φ := .f32)) x (constant (F := Ideal) u .f32 0xFF800000#32) h' hu j
      = ⨆ k : Fin (s.size a), x (h.lift j k) := by
  rw [Host.reduce_eq_fold_single _ x _ h' h hu j]
  show Finset.fold _ (Ideal.ofBits .f32 0xFF800000#32) _ _ = _
  rw [ofBits_negInf_f32, fold_eq_sup (FloatOps.maximumf (F := Ideal) (φ := .f32)) (fun _ _ => rfl), Finset.sup_univ_eq_iSup]
  rfl

/-- A host reduction with a minimum body from `+∞` over ONE axis, at a result index `j`: the infimum over that axis's
    coordinates. -/
theorem hostReduce_minimumf_single {s t u : Shape} {a : Fin s.rank} (x : s.Idx → EReal)
    (h' : s.ReducesTo [a] t) (h : s.Reduces [a] t) (hu : 0 < u.numel) (j : t.Idx) :
    Host.reduce (FloatOps.minimumf (F := Ideal) (φ := .f32)) x (constant (F := Ideal) u .f32 0x7F800000#32) h' hu j
      = ⨅ k : Fin (s.size a), x (h.lift j k) := by
  rw [Host.reduce_eq_fold_single _ x _ h' h hu j]
  show Finset.fold _ (Ideal.ofBits .f32 0x7F800000#32) _ _ = _
  rw [ofBits_posInf_f32, fold_eq_inf (FloatOps.minimumf (F := Ideal) (φ := .f32)) (fun _ _ => rfl), Finset.inf_univ_eq_iInf]
  rfl

end Cert.LibReduceAxis

end
-- ==== Proof.RefReads.lean ====
/-
  The reference program's stages read at an index built from coordinates, at the exact values.

  At the exact values a float is an extended real and every operation is the textbook one. Read at an index given by its
  coordinates, a projection x·wᵀ is a sum over the contracted coordinate; the scores are the dot products of a query row
  with a key row times the factor 1/8; the row maximum is the supremum of the scores over the key coordinate (the outer
  maximum with -∞ changes nothing); the attention weights are the softmax row of the scores; and the context is the sum
  over the key coordinate of weight times value.
-/
import proofs.«101271_j71768903516761_2_alg».proof.Proof.Gen.ReferenceIdeal.Read
import proofs.«101271_j71768903516761_2_alg».proof.Proof.Spec
import proofs.«101271_j71768903516761_2_alg».proof.Proof.LibReduceAxis

noncomputable section

namespace Cert.ReferenceIdeal.RefReads

open Cert.ReferenceIdeal Cert.ReferenceIdeal.Read Idealize.ShloMosaic Idealize.ShloMosaic.ValueIdx

abbrev A3 := (⟨S2x2048x1024, .f32⟩ : BufTy).Contents (Elt Ideal)
abbrev A2 := (⟨S1024x1024, .f32⟩ : BufTy).Contents (Elt Ideal)

/-- A projection x·wᵀ at (b, s, e): the sum over k of x(b,s,k)·w(e,k). -/
theorem proj_apply (x : A3) (w : A2) (b : Fin 2) (s : Fin 2048) (e : Fin 1024) :
    val_main_v0 (F := Ideal) x w (ix3 b s e) = ∑ k : Fin 1024, x (ix3 b s k) * w (ix2 e k) := by
  rw [val_main_v0_apply]
  refine Finset.sum_congr rfl fun k _ => ?_
  have el : lidx_main_v0 (ix3 b s e) k = ix3 b s k :=
    funext fun a => Fin.ext (by match a with | ⟨0, _⟩ => rfl | ⟨1, _⟩ => rfl | ⟨2, _⟩ => rfl)
  have er : ridx_main_v0 (ix3 b s e) k = ix2 e k :=
    funext fun a => Fin.ext (by match a with | ⟨0, _⟩ => rfl | ⟨1, _⟩ => rfl)
  rw [el, er]

/-- The context at (b, h, i, d): the weights of row i against column d of the values. -/
theorem ctx_apply (x0 x1 x2 : A3) (x3 x4 x5 : A2) (b : Fin 2) (h : Fin 16) (i : Fin 2048) (d : Fin 64) :
    val_main_v23 (F := Ideal) x0 x1 x2 x3 x4 x5 (ix4 b h i d)
      = ∑ j : Fin 2048, val_main_v22 (F := Ideal) x0 x1 x3 x4 (ix4 b h i j) * val_main_v8 (F := Ideal) x2 x5 (ix4 b h j d) := by
  rw [val_main_v23_apply]
  refine Finset.sum_congr rfl fun k _ => ?_
  have el : lidx_main_v23 (ix4 b h i d) k = ix4 b h i k :=
    funext fun a => Fin.ext (by match a with | ⟨0, _⟩ => rfl | ⟨1, _⟩ => rfl | ⟨2, _⟩ => rfl | ⟨3, _⟩ => rfl)
  have er : ridx_main_v23 (ix4 b h i d) k = ix4 b h k d :=
    funext fun a => Fin.ext (by match a with | ⟨0, _⟩ => rfl | ⟨1, _⟩ => rfl | ⟨2, _⟩ => rfl | ⟨3, _⟩ => rfl)
  rw [el, er]

/-- The scores at (b, h, i, j): the dot product of query row i with key row j, times the factor 1/8. -/
theorem score_apply (x0 x1 : A3) (x3 x4 : A2) (b : Fin 2) (h : Fin 16) (i j : Fin 2048) :
    val_main_v11 (F := Ideal) x0 x1 x3 x4 (ix4 b h i j)
      = (∑ d : Fin 64, val_main_v4 (F := Ideal) x0 x3 (ix4 b h i d) * val_main_v6 (F := Ideal) x1 x4 (ix4 b h j d)) * Cert.Attn.scale := by
  rw [val_main_v11_apply, val_main_v9_apply, val_main_v10_apply, val_main_cst_apply, Ideal.mulf_def, Ideal.ofBits_def]
  refine congrArg (· * Cert.Attn.scale) (Finset.sum_congr rfl fun k _ => ?_)
  have el : lidx_main_v9 (ix4 b h i j) k = ix4 b h i k :=
    funext fun a => Fin.ext (by match a with | ⟨0, _⟩ => rfl | ⟨1, _⟩ => rfl | ⟨2, _⟩ => rfl | ⟨3, _⟩ => rfl)
  have er : ridx_main_v9 (ix4 b h i j) k = ix4 b h j k :=
    funext fun a => Fin.ext (by match a with | ⟨0, _⟩ => rfl | ⟨1, _⟩ => rfl | ⟨2, _⟩ => rfl | ⟨3, _⟩ => rfl)
  rw [el, er]

/-- The row maximum at (b, h, i): the supremum over the key coordinate of the scores; the outer maximum with -∞ is the
    identity. -/
theorem rowmax_apply (x0 x1 : A3) (x3 x4 : A2) (b : Fin 2) (h : Fin 16) (i : Fin 2048) :
    val_main_v14 (F := Ideal) x0 x1 x3 x4 (ix3 b h i)
      = ⨆ j' : Fin 2048, val_main_v11 (F := Ideal) x0 x1 x3 x4 (ix4 b h i j') := by
  have hr : S2x16x2048x2048.Reduces [3] S2x16x2048 := by decide
  rw [val_main_v14_apply, val_main_v13_apply, val_main_cst_1_apply, Ideal.maximumf_def, Ideal.ofBits_def,
    Cert.LibReduceInf.ofBits_negInf_f32, max_bot_left]
  unfold val_main_v12 val_main_cst_0
  generalize val_main_v11 (F := Ideal) x0 x1 x3 x4 = y
  refine (Cert.LibReduceAxis.hostReduce_maximumf_single y _ hr _ (ix3 b h i)).trans ?_
  show (⨆ k : Fin 2048, y (hr.lift (ix3 b h i) k)) = _
  refine iSup_congr fun k => congrArg y ?_
  exact funext fun a => Fin.ext (by match a with | ⟨0, _⟩ => rfl | ⟨1, _⟩ => rfl | ⟨2, _⟩ => rfl | ⟨3, _⟩ => rfl)

/-- The exponentials at (b, h, i, j): exp of the score minus its row's maximum. -/
theorem exp_apply (x0 x1 : A3) (x3 x4 : A2) (b : Fin 2) (h : Fin 16) (i j : Fin 2048) :
    val_main_v18 (F := Ideal) x0 x1 x3 x4 (ix4 b h i j)
      = Ideal.exp (val_main_v11 (F := Ideal) x0 x1 x3 x4 (ix4 b h i j) - val_main_v14 (F := Ideal) x0 x1 x3 x4 (ix3 b h i)) := by
  rw [val_main_v18_apply, val_main_v17_apply, val_main_v16_apply, val_main_v15_apply, Ideal.hostUnary_exp_def, Ideal.subf_def]
  have e : idx_main_v15 (idx_main_v16 (ix4 b h i j)) = ix3 b h i :=
    funext fun a => Fin.ext (by match a with | ⟨0, _⟩ => rfl | ⟨1, _⟩ => rfl | ⟨2, _⟩ => rfl)
  rw [e]

/-- The attention weights at (b, h, i, j): the softmax row of the scaled scores of query row i against every key row. -/
theorem attn_apply (x0 x1 : A3) (x3 x4 : A2) (b : Fin 2) (h : Fin 16) (i j : Fin 2048) :
    val_main_v22 (F := Ideal) x0 x1 x3 x4 (ix4 b h i j)
      = Cert.Attn.softRow (fun j' => (∑ d : Fin 64, val_main_v4 (F := Ideal) x0 x3 (ix4 b h i d) * val_main_v6 (F := Ideal) x1 x4 (ix4 b h j' d)) * Cert.Attn.scale) j := by
  rw [val_main_v22_apply, val_main_v21_apply, val_main_v20_apply, val_main_v19_apply, val_main_cst_2_apply,
    Ideal.hostDivf_def, Ideal.ofBits_def, Ideal.ofBits_zero_f32, zero_add]
  have e : ∀ k : Fin 2048, idx_main_v19 (idx_main_v20 (idx_main_v21 (ix4 b h i j))) k = ix4 b h i k := fun k =>
    funext fun a => Fin.ext (by match a with | ⟨0, _⟩ => rfl | ⟨1, _⟩ => rfl | ⟨2, _⟩ => rfl | ⟨3, _⟩ => rfl)
  simp only [e, exp_apply, rowmax_apply, score_apply]
  rfl

end Cert.ReferenceIdeal.RefReads

end
-- ==== Proof.LibFlattenRows.lean ====
/-
  The two leading axes of an array merged into one, or one leading axis split into two, by a shape cast, read at an
  index given by coordinates.

  An array of shape [a, b, c] and an array of shape [n, c] with n = a·b list the same entries in row-major order: entry
  (p, q, r) of the first stands at position (p·b + q)·c + r, which is the position of entry (p·b + q, r) of the second.
  A cast in either direction therefore reads, at the one index, the operand at the other. The row number is passed as
  its own `Fin n` with the equation `k = p·b + q`, so that a caller may spell it as it finds it.
-/
import Idealize.ShloMosaic.Lib.Pipeline.Value
import Idealize.ShloMosaic.Lib.ValueIdx

namespace Cert.LibFlattenRows

open Idealize.ShloMosaic Idealize.ShloMosaic.ValueIdx

variable {α : Type}

/-- Row `p·b + q` of the merged array exists: it is below `a·b`. -/
theorem row_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- An `[a, b, c]` array cast to `[n, c]` (so `n = a·b`) reads, at `(k, r)` with `k = p·b + q`, the operand at
    `(p, q, r)`: the two indices have the same row-major position. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c) (k : Fin n)
    (hk : k.val = p.val * b + q.val) :
    shapeCast ⟨2, ![n, c]⟩ x h (ix2 k r) = x (ix3 p q r) :=
  shapeCast_apply x h _ _ (by
    rw [Shape.rowMajor_val_three, Shape.rowMajor_val_two]
    show (p.val * b + q.val) * c + r.val = k.val * c + r.val
    rw [hk])

/-- An `[n, c]` array cast to `[a, b, c]` (so `n = a·b`) reads, at `(p, q, r)`, the operand at `(k, r)` with
    `k = p·b + q`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (r : Fin c) (k : Fin n)
    (hk : k.val = p.val * b + q.val) :
    shapeCast ⟨3, ![a, b, c]⟩ x h (ix3 p q r) = x (ix2 k r) :=
  shapeCast_apply x h _ _ (by
    rw [Shape.rowMajor_val_three, Shape.rowMajor_val_two]
    show k.val * c + r.val = (p.val * b + q.val) * c + r.val
    rw [hk])

end Cert.LibFlattenRows
-- ==== Proof.Bridge.lean ====
/-
  The kernel side's whole-array functions against the reference's stages, as equalities of arrays through shape casts.

  The kernel keeps the rows (b, s) of a [2, 2048, ·] array merged as r = 2048·b + s, and the heads (b, h) of a
  [2, 16, 2048, ·] array merged as g = 16·b + h. A shape cast keeps the row-major order of the entries, so a cast that
  merges two leading axes reads, at the merged coordinate, the operand at the split coordinates b = r / 2048, s = r % 2048
  (b = g / 16, h = g % 16). With that, each function of the cast arrays is the cast of the reference's stage, index by
  index: the product of the merged rows with the transposed weights is the merged projection, the softmax weights of the
  merged queries and keys are the merged attention weights, and their context is the merged context.
-/
import proofs.«101271_j71768903516761_2_alg».proof.Proof.RefReads
import proofs.«101271_j71768903516761_2_alg».proof.Proof.ProjSpec
import proofs.«101271_j71768903516761_2_alg».proof.Proof.AttnSpec
import proofs.«101271_j71768903516761_2_alg».proof.Proof.LibFlattenRows
import Idealize.ShloMosaic.Lib.Pipeline.Value
import Idealize.ShloMosaic.Lib.ValueIdx

noncomputable section

namespace Cert.Bridge

open Cert.ReferenceIdeal.Read Cert.ReferenceIdeal.RefReads Cert.KernelIdeal.ProjSpec Cert.KernelIdeal.AttnSpec Idealize.ShloMosaic Idealize.ShloMosaic.ValueIdx

/-- A cast of a cast is the cast: all three list the entries in row-major order. -/
theorem shapeCast_comp {s t u : Shape} {α : Type} (v : s.Idx → α) (h : s.ShapeCasts t) (h' : t.ShapeCasts u) (h'' : s.ShapeCasts u) :
    shapeCast u (shapeCast t v h) h' = shapeCast u v h'' := by
  funext j
  show v (Shape.reshapeEquiv h (Shape.reshapeEquiv h' j)) = v (Shape.reshapeEquiv h'' j)
  rw [Shape.reshapeEquiv_reshapeEquiv]

/-- An [a,b,c,d] array cast to [n,c,d] (n = a·b) reads, at (k, r, s) with k = p·b + q, the operand at (p,q,r,s): the two
    indices have the same row-major position. -/
theorem shapeCast_abcd_ncd_apply {α : Type} {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (s : Fin d) (k : Fin n)
    (hk : k.val = p.val * b + q.val) : shapeCast ⟨3, ![n, c, d]⟩ x h (ix3 k r s) = x (ix4 p q r s) :=
  shapeCast_apply x h _ _ (by
    rw [Shape.rowMajor_val_four, Shape.rowMajor_val_three]
    show ((p.val * b + q.val) * c + r.val) * d + s.val = (k.val * c + r.val) * d + s.val
    rw [hk])

/-- Rows merged: the product of the merged rows with the transposed weights is the merged projection. -/
theorem proj_bridge (X : A3) (W : A2) (h : Cert.ReferenceIdeal.S2x2048x1024.ShapeCasts Cert.KernelIdeal.S4096x1024) :
    PJ (shapeCast Cert.KernelIdeal.S4096x1024 X h) W = shapeCast Cert.KernelIdeal.S4096x1024 (val_main_v0 (F := Ideal) X W) h := by
  funext idx
  obtain ⟨r, e, rfl⟩ : ∃ (r : Fin 4096) (e : Fin 1024), idx = ix2 r e := ⟨idx 0, idx 1, eq_ix2 idx⟩
  have hlt : r.val < 4096 := r.isLt
  let b : Fin 2 := ⟨r.val / 2048, by omega⟩
  let s : Fin 2048 := ⟨r.val % 2048, by omega⟩
  have hr : r.val = b.val * 2048 + s.val := by show r.val = r.val / 2048 * 2048 + r.val % 2048; omega
  refine (PJ_apply _ W r e).trans ?_
  refine Eq.trans ?_ ((Cert.LibFlattenRows.shapeCast_abc_nc_apply (val_main_v0 (F := Ideal) X W) h b s e r hr).trans
    (proj_apply X W b s e)).symm
  refine Finset.sum_congr rfl fun k _ => ?_
  exact congrArg (· * W (ix2 e k)) (Cert.LibFlattenRows.shapeCast_abc_nc_apply X h b s k r hr)

/-- Heads merged: the weights of the merged queries and keys are the merged attention weights. -/
theorem att_bridge (x0 x1 : A3) (x3 x4 : A2)
    (h4 : Cert.ReferenceIdeal.S2x16x2048x64.ShapeCasts Cert.KernelIdeal.S32x2048x64)
    (h22 : Cert.ReferenceIdeal.S2x16x2048x2048.ShapeCasts Cert.KernelIdeal.S32x2048x2048) :
    ATT (shapeCast Cert.KernelIdeal.S32x2048x64 (val_main_v4 (F := Ideal) x0 x3) h4) (shapeCast Cert.KernelIdeal.S32x2048x64 (val_main_v6 (F := Ideal) x1 x4) h4)
      = shapeCast Cert.KernelIdeal.S32x2048x2048 (val_main_v22 (F := Ideal) x0 x1 x3 x4) h22 := by
  funext idx
  obtain ⟨g, i, j, rfl⟩ : ∃ (g : Fin 32) (i j : Fin 2048), idx = ix3 g i j := ⟨idx 0, idx 1, idx 2, eq_ix3 idx⟩
  have hlt : g.val < 32 := g.isLt
  let b : Fin 2 := ⟨g.val / 16, by omega⟩
  let hd : Fin 16 := ⟨g.val % 16, by omega⟩
  have hg : g.val = b.val * 16 + hd.val := by show g.val = g.val / 16 * 16 + g.val % 16; omega
  refine (ATT_apply _ _ g i j).trans ?_
  refine Eq.trans ?_ ((shapeCast_abcd_ncd_apply (val_main_v22 (F := Ideal) x0 x1 x3 x4) h22 b hd i j g hg).trans
    (attn_apply x0 x1 x3 x4 b hd i j)).symm
  refine congrArg (fun sc => Cert.Attn.softRow sc j) (funext fun j' => ?_)
  refine congrArg (· * Cert.Attn.scale) (Finset.sum_congr rfl fun d _ => ?_)
  rw [shapeCast_abcd_ncd_apply (val_main_v4 (F := Ideal) x0 x3) h4 b hd i d g hg,
    shapeCast_abcd_ncd_apply (val_main_v6 (F := Ideal) x1 x4) h4 b hd j' d g hg]

/-- Heads merged: the context of the merged queries, keys and values is the merged context. -/
theorem ctx_bridge (x0 x1 x2 : A3) (x3 x4 x5 : A2)
    (h4 : Cert.ReferenceIdeal.S2x16x2048x64.ShapeCasts Cert.KernelIdeal.S32x2048x64)
    (h22 : Cert.ReferenceIdeal.S2x16x2048x2048.ShapeCasts Cert.KernelIdeal.S32x2048x2048) :
    CTX (shapeCast Cert.KernelIdeal.S32x2048x64 (val_main_v4 (F := Ideal) x0 x3) h4) (shapeCast Cert.KernelIdeal.S32x2048x64 (val_main_v6 (F := Ideal) x1 x4) h4)
        (shapeCast Cert.KernelIdeal.S32x2048x64 (val_main_v8 (F := Ideal) x2 x5) h4)
      = shapeCast Cert.KernelIdeal.S32x2048x64 (val_main_v23 (F := Ideal) x0 x1 x2 x3 x4 x5) h4 := by
  funext idx
  obtain ⟨g, i, d, rfl⟩ : ∃ (g : Fin 32) (i : Fin 2048) (d : Fin 64), idx = ix3 g i d := ⟨idx 0, idx 1, idx 2, eq_ix3 idx⟩
  have hlt : g.val < 32 := g.isLt
  let b : Fin 2 := ⟨g.val / 16, by omega⟩
  let hd : Fin 16 := ⟨g.val % 16, by omega⟩
  have hg : g.val = b.val * 16 + hd.val := by show g.val = g.val / 16 * 16 + g.val % 16; omega
  refine (CTX_apply _ _ _ g i d).trans ?_
  refine Eq.trans ?_ ((shapeCast_abcd_ncd_apply (val_main_v23 (F := Ideal) x0 x1 x2 x3 x4 x5) h4 b hd i d g hg).trans
    (ctx_apply x0 x1 x2 x3 x4 x5 b hd i d)).symm
  refine Finset.sum_congr rfl fun j _ => ?_
  rw [congrFun (att_bridge x0 x1 x3 x4 h4 h22) (ix3 g i j),
    shapeCast_abcd_ncd_apply (val_main_v22 (F := Ideal) x0 x1 x3 x4) h22 b hd i j g hg,
    shapeCast_abcd_ncd_apply (val_main_v8 (F := Ideal) x2 x5) h4 b hd j d g hg]

end Cert.Bridge

end
-- ==== Proof.KValue.lean ====
/-
  The idealized kernel's two results as the reference's stages of the argument arrays.

  The run's final contents are a fold over the program's segments. Walking it forward from the launch memory: the first
  host stretch merges the rows of the three inputs; the three projection regions leave the merged projections; the second
  stretch re-lays each projection head by head, which is the reference's split into heads with the two leading axes
  merged; the attention region leaves the merged attention weights and the merged context; the third stretch re-lays the
  context back to merged rows, which is the reference's merged heads; the last projection region leaves the merged
  output; and the last stretch splits the merged axes again. A cast there and back is the identity, so the two result
  buffers end holding exactly the reference's output and attention weights of the argument arrays.
-/
import proofs.«101271_j71768903516761_2_alg».proof.Proof.Gen.KernelIdeal.Frame
import proofs.«101271_j71768903516761_2_alg».proof.Proof.Reg0
import proofs.«101271_j71768903516761_2_alg».proof.Proof.Reg1
import proofs.«101271_j71768903516761_2_alg».proof.Proof.Reg2
import proofs.«101271_j71768903516761_2_alg».proof.Proof.Reg3
import proofs.«101271_j71768903516761_2_alg».proof.Proof.Reg4
import proofs.«101271_j71768903516761_2_alg».proof.Proof.HostStretch
import proofs.«101271_j71768903516761_2_alg».proof.Proof.Bridge

set_option maxRecDepth 16384

noncomputable section

namespace Cert.KernelIdeal.KValue

open Cert.KernelIdeal Cert.KernelIdeal.Gen Cert.KernelIdeal.ProjSpec Cert.KernelIdeal.AttnSpec Cert.KernelIdeal.HostStretch Cert.Bridge
open Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-! ## The argument arrays as launched -/

abbrev aQ : S2x2048x1024.Idx → EReal := m ((c : Thread nD τ).loc main_arg0)
abbrev aK : S2x2048x1024.Idx → EReal := m ((c : Thread nD τ).loc main_arg1)
abbrev aV : S2x2048x1024.Idx → EReal := m ((c : Thread nD τ).loc main_arg2)
abbrev aWq : S1024x1024.Idx → EReal := m ((c : Thread nD τ).loc main_arg3)
abbrev aWk : S1024x1024.Idx → EReal := m ((c : Thread nD τ).loc main_arg4)
abbrev aWv : S1024x1024.Idx → EReal := m ((c : Thread nD τ).loc main_arg5)
abbrev aWo : S1024x1024.Idx → EReal := m ((c : Thread nD τ).loc main_arg6)

/-! ## After the first host stretch: the inputs with their rows merged, the weights as launched -/

theorem W1_v0 : W1 m ρ c (Proc.devRef .tc main_call0_v0) = shapeCast S4096x1024 (aQ m c) shapeCasts_S2x2048x1024_S4096x1024 :=
  h0_v0 (W0 m ρ c)
theorem W1_v1 : W1 m ρ c (Proc.devRef .tc main_call0_v1) = shapeCast S4096x1024 (aK m c) shapeCasts_S2x2048x1024_S4096x1024 :=
  h0_v1 (W0 m ρ c)
theorem W1_v2 : W1 m ρ c (Proc.devRef .tc main_call0_v2) = shapeCast S4096x1024 (aV m c) shapeCasts_S2x2048x1024_S4096x1024 :=
  h0_v2 (W0 m ρ c)
theorem W1_arg3 : W1 m ρ c (Proc.devRef .tc main_arg3) = aWq m c :=
  h0_keep (W0 m ρ c) main_arg3 (by decide) (by decide) (by decide)
theorem W1_arg4 : W1 m ρ c (Proc.devRef .tc main_arg4) = aWk m c :=
  h0_keep (W0 m ρ c) main_arg4 (by decide) (by decide) (by decide)
theorem W1_arg5 : W1 m ρ c (Proc.devRef .tc main_arg5) = aWv m c :=
  h0_keep (W0 m ρ c) main_arg5 (by decide) (by decide) (by decide)
theorem W1_arg6 : W1 m ρ c (Proc.devRef .tc main_arg6) = aWo m c :=
  h0_keep (W0 m ρ c) main_arg6 (by decide) (by decide) (by decide)

/-! ## The three projection regions -/

/-- The query projection, rows merged. -/
theorem W2_v3 : W2 m ρ c (Proc.devRef .tc main_call0_v3)
    = shapeCast S4096x1024 (val_main_v0 (F := Ideal) (aQ m c) (aWq m c)) shapeCasts_S2x2048x1024_S4096x1024 :=
  ((W2_arr m ρ c 2).trans (Reg0.final (V1 m ρ) c)).trans
    ((congrArg₂ PJ (W1_v0 m ρ c) (W1_arg3 m ρ c)).trans (proj_bridge (aQ m c) (aWq m c) _))

theorem W2_v1 : W2 m ρ c (Proc.devRef .tc main_call0_v1) = shapeCast S4096x1024 (aK m c) shapeCasts_S2x2048x1024_S4096x1024 :=
  (W2_of_ne m ρ c main_call0_v1 (by decide)).trans (W1_v1 m ρ c)
theorem W2_arg4 : W2 m ρ c (Proc.devRef .tc main_arg4) = aWk m c :=
  (W2_of_ne m ρ c main_arg4 (by decide)).trans (W1_arg4 m ρ c)

/-- The key projection, rows merged. -/
theorem W3_v4 : W3 m ρ c (Proc.devRef .tc main_call0_v4)
    = shapeCast S4096x1024 (val_main_v0 (F := Ideal) (aK m c) (aWk m c)) shapeCasts_S2x2048x1024_S4096x1024 :=
  ((W3_arr m ρ c 2).trans (Reg1.final (V2 m ρ) c)).trans
    ((congrArg₂ PJ (W2_v1 m ρ c) (W2_arg4 m ρ c)).trans (proj_bridge (aK m c) (aWk m c) _))

theorem W3_v2 : W3 m ρ c (Proc.devRef .tc main_call0_v2) = shapeCast S4096x1024 (aV m c) shapeCasts_S2x2048x1024_S4096x1024 :=
  (W3_of_ne m ρ c main_call0_v2 (by decide)).trans ((W2_of_ne m ρ c main_call0_v2 (by decide)).trans (W1_v2 m ρ c))
theorem W3_arg5 : W3 m ρ c (Proc.devRef .tc main_arg5) = aWv m c :=
  (W3_of_ne m ρ c main_arg5 (by decide)).trans ((W2_of_ne m ρ c main_arg5 (by decide)).trans (W1_arg5 m ρ c))

/-- The value projection, rows merged. -/
theorem W4_v5 : W4 m ρ c (Proc.devRef .tc main_call0_v5)
    = shapeCast S4096x1024 (val_main_v0 (F := Ideal) (aV m c) (aWv m c)) shapeCasts_S2x2048x1024_S4096x1024 :=
  ((W4_arr m ρ c 2).trans (Reg2.final (V3 m ρ) c)).trans
    ((congrArg₂ PJ (W3_v2 m ρ c) (W3_arg5 m ρ c)).trans (proj_bridge (aV m c) (aWv m c) _))

theorem W4_v3 : W4 m ρ c (Proc.devRef .tc main_call0_v3)
    = shapeCast S4096x1024 (val_main_v0 (F := Ideal) (aQ m c) (aWq m c)) shapeCasts_S2x2048x1024_S4096x1024 :=
  (W4_of_ne m ρ c main_call0_v3 (by decide)).trans ((W3_of_ne m ρ c main_call0_v3 (by decide)).trans (W2_v3 m ρ c))
theorem W4_v4 : W4 m ρ c (Proc.devRef .tc main_call0_v4)
    = shapeCast S4096x1024 (val_main_v0 (F := Ideal) (aK m c) (aWk m c)) shapeCasts_S2x2048x1024_S4096x1024 :=
  (W4_of_ne m ρ c main_call0_v4 (by decide)).trans (W3_v4 m ρ c)
theorem W4_arg6 : W4 m ρ c (Proc.devRef .tc main_arg6) = aWo m c :=
  (W4_of_ne m ρ c main_arg6 (by decide)).trans ((W3_of_ne m ρ c main_arg6 (by decide)).trans
    ((W2_of_ne m ρ c main_arg6 (by decide)).trans (W1_arg6 m ρ c)))

/-! ## After the second host stretch: each projection split into heads, the two leading axes merged -/

/-- Splitting the merged rows into (batch, row, head, width) is splitting the unmerged array's columns: both casts keep
    the row-major order. -/
theorem split_merged (r : S2x2048x1024.Idx → EReal) :
    shapeCast S2x2048x16x64 (shapeCast S4096x1024 r shapeCasts_S2x2048x1024_S4096x1024) shapeCasts_S4096x1024_S2x2048x16x64
      = shapeCast S2x2048x16x64 r (by decide) :=
  shapeCast_comp r _ _ _

/-- Splitting merged heads again undoes the merge. -/
theorem unmerge_heads (r : S2x16x2048x64.Idx → EReal) :
    shapeCast S2x16x2048x64 (shapeCast S32x2048x64 r shapeCasts_S2x16x2048x64_S32x2048x64) shapeCasts_S32x2048x64_S2x16x2048x64 = r :=
  shapeCast_shapeCast r _ _

theorem W5_v8 : W5 m ρ c (Proc.devRef .tc main_call0_v8)
    = shapeCast S32x2048x64 (val_main_v4 (F := Ideal) (aQ m c) (aWq m c)) shapeCasts_S2x16x2048x64_S32x2048x64 := by
  refine (h3_v8 (W4 m ρ c)).trans ?_
  rw [W4_v3 m ρ c]
  exact congrArg (fun z : S2x2048x16x64.Idx → EReal => shapeCast S32x2048x64 (transpose S2x16x2048x64 [0, 2, 1, 3] z
    transposes_S2x2048x16x64_S2x16x2048x64_0_2_1_3) shapeCasts_S2x16x2048x64_S32x2048x64)
    (split_merged (val_main_v0 (F := Ideal) (aQ m c) (aWq m c)))
theorem W5_v11 : W5 m ρ c (Proc.devRef .tc main_call0_v11)
    = shapeCast S32x2048x64 (val_main_v6 (F := Ideal) (aK m c) (aWk m c)) shapeCasts_S2x16x2048x64_S32x2048x64 := by
  refine (h3_v11 (W4 m ρ c)).trans ?_
  rw [W4_v4 m ρ c]
  exact congrArg (fun z : S2x2048x16x64.Idx → EReal => shapeCast S32x2048x64 (transpose S2x16x2048x64 [0, 2, 1, 3] z
    transposes_S2x2048x16x64_S2x16x2048x64_0_2_1_3) shapeCasts_S2x16x2048x64_S32x2048x64)
    (split_merged (val_main_v0 (F := Ideal) (aK m c) (aWk m c)))
theorem W5_v14 : W5 m ρ c (Proc.devRef .tc main_call0_v14)
    = shapeCast S32x2048x64 (val_main_v8 (F := Ideal) (aV m c) (aWv m c)) shapeCasts_S2x16x2048x64_S32x2048x64 := by
  refine (h3_v14 (W4 m ρ c)).trans ?_
  rw [W4_v5 m ρ c]
  exact congrArg (fun z : S2x2048x16x64.Idx → EReal => shapeCast S32x2048x64 (transpose S2x16x2048x64 [0, 2, 1, 3] z
    transposes_S2x2048x16x64_S2x16x2048x64_0_2_1_3) shapeCasts_S2x16x2048x64_S32x2048x64)
    (split_merged (val_main_v0 (F := Ideal) (aV m c) (aWv m c)))

/-! ## The attention region -/

/-- The attention weights, heads merged. -/
theorem W6_att : W6 m ρ c (Proc.devRef .tc main_call0_v15_1)
    = shapeCast S32x2048x2048 (val_main_v22 (F := Ideal) (aQ m c) (aK m c) (aWq m c) (aWk m c)) (by decide) :=
  ((W6_arr m ρ c 4).trans (Reg3.final_att (V5 m ρ) c)).trans
    ((congrArg₂ ATT (W5_v8 m ρ c) (W5_v11 m ρ c)).trans (att_bridge (aQ m c) (aK m c) (aWq m c) (aWk m c) _ _))

/-- The context, heads merged. -/
theorem W6_ctx : W6 m ρ c (Proc.devRef .tc main_call0_v15_0)
    = shapeCast S32x2048x64 (val_main_v23 (F := Ideal) (aQ m c) (aK m c) (aV m c) (aWq m c) (aWk m c) (aWv m c)) shapeCasts_S2x16x2048x64_S32x2048x64 :=
  ((W6_arr m ρ c 3).trans (Reg3.final_ctx (V5 m ρ) c)).trans
    ((congr (congrArg₂ CTX (W5_v8 m ρ c) (W5_v11 m ρ c)) (W5_v14 m ρ c)).trans
      (ctx_bridge (aQ m c) (aK m c) (aV m c) (aWq m c) (aWk m c) (aWv m c) _ (by decide)))

/-! ## After the third host stretch: the context with its heads merged back into rows -/

theorem W7_v19 : W7 m ρ c (Proc.devRef .tc main_call0_v19)
    = shapeCast S4096x1024 (val_main_v25 (F := Ideal) (aQ m c) (aK m c) (aV m c) (aWq m c) (aWk m c) (aWv m c)) shapeCasts_S2x2048x1024_S4096x1024 := by
  refine (h4_v19 (W6 m ρ c)).trans ?_
  rw [W6_ctx m ρ c]
  exact congrArg (fun z : S2x16x2048x64.Idx → EReal => shapeCast S4096x1024 (shapeCast S2x2048x1024 (transpose S2x2048x16x64 [0, 2, 1, 3] z
    transposes_S2x16x2048x64_S2x2048x16x64_0_2_1_3) shapeCasts_S2x2048x16x64_S2x2048x1024) shapeCasts_S2x2048x1024_S4096x1024)
    (unmerge_heads (val_main_v23 (F := Ideal) (aQ m c) (aK m c) (aV m c) (aWq m c) (aWk m c) (aWv m c)))

theorem W7_arg6 : W7 m ρ c (Proc.devRef .tc main_arg6) = aWo m c :=
  (h4_keep (W6 m ρ c) main_arg6 (by decide) (by decide) (by decide) (by decide)).trans
    ((W6_of_ne m ρ c main_arg6 (by decide)).trans
      ((h3_keep (W4 m ρ c) main_arg6 (by decide)).trans (W4_arg6 m ρ c)))

/-! ## The output projection region -/

/-- The output, rows merged. -/
theorem W8_v20 : W8 m ρ c (Proc.devRef .tc main_call0_v20)
    = shapeCast S4096x1024 (val_main_v26 (F := Ideal) (aQ m c) (aK m c) (aV m c) (aWq m c) (aWk m c) (aWv m c) (aWo m c)) shapeCasts_S2x2048x1024_S4096x1024 :=
  ((W8_arr m ρ c 2).trans (Reg4.final (V7 m ρ) c)).trans
    ((congrArg₂ PJ (W7_v19 m ρ c) (W7_arg6 m ρ c)).trans
      (proj_bridge (val_main_v25 (F := Ideal) (aQ m c) (aK m c) (aV m c) (aWq m c) (aWk m c) (aWv m c)) (aWo m c) _))

theorem W8_att : W8 m ρ c (Proc.devRef .tc main_call0_v15_1)
    = shapeCast S32x2048x2048 (val_main_v22 (F := Ideal) (aQ m c) (aK m c) (aWq m c) (aWk m c)) (by decide) :=
  (W8_of_ne m ρ c main_call0_v15_1 (by decide)).trans
    ((h4_keep (W6 m ρ c) main_call0_v15_1 (by decide) (by decide) (by decide) (by decide)).trans (W6_att m ρ c))

/-! ## After the last host stretch: the two results -/

/-- The first result: the reference's output of the argument arrays. -/
theorem out0 : W9 m ρ c (Proc.devRef .tc main_v0_0) = val_main_v26 (F := Ideal) (aQ m c) (aK m c) (aV m c) (aWq m c) (aWk m c) (aWv m c) (aWo m c) := by
  refine (h5_out0 (W8 m ρ c)).trans ?_
  rw [W8_v20 m ρ c]
  exact shapeCast_shapeCast _ _ _

/-- The second result: the reference's attention weights of the argument arrays. -/
theorem out1 : W9 m ρ c (Proc.devRef .tc main_v0_1) = val_main_v22 (F := Ideal) (aQ m c) (aK m c) (aWq m c) (aWk m c) := by
  refine (h5_out1 (W8 m ρ c)).trans ?_
  rw [W8_att m ρ c]
  exact shapeCast_shapeCast _ _ _

end Cert.KernelIdeal.KValue

end
-- ==== Proof.lean ====
/-
  Multi-head attention in five kernel regions against its plain reference, equal at the exact values.

  Both programs take queries, keys and values q, k, v of shape [2, 2048, 1024] and four [1024, 1024] weight matrices. Both
  form the projections Q = q·w_qᵀ, K = k·w_kᵀ, V = v·w_vᵀ, split the 1024 columns into 16 heads of width 64, take for every
  head the scores S = Q_h·K_hᵀ·(1/8), the row-wise softmax A = exp(S − max S) / Σ exp(S − max S) and the context C = A·V_h, put
  the heads back side by side and return C·w_oᵀ together with A. The kernel does each projection in a region of four row
  blocks and the attention in a region of 32 × 4 blocks (one head, 512 query rows), carrying rows (b, s) merged as
  2048·b + s and heads (b, h) merged as 16·b + h between regions; the reference works on the unmerged arrays in one line of
  host operations. At the exact values a float is an extended real, every operation is the textbook one and a change of
  float format is the identity, so a block of rows of a product depends only on the same rows of its left factor, a
  block of query rows of the softmax and of the context depends only on those rows and on the head's keys and values,
  and a cast that merges two leading axes keeps every entry at its row-major place. No law that needs finiteness is
  used: the two programs apply the same operations to the same entries, and sums over a finite index do not depend
  on their order.

  The three frames are the generated ones (the reference's is its generated run with the results dropped); the ideal
  pass rewrote nothing, so the kernel's idealization is its own text; the two runs end with equal results because the
  kernel's result buffers end at the reference's stages of the argument arrays (Proof/KValue.lean over Proof/KRun.lean)
  and so do the reference's (its generated run, read stage by stage).
-/
import proofs.«101271_j71768903516761_2_alg».proof.Defs
import proofs.«101271_j71768903516761_2_alg».proof.Proof.Gen.Kernel
import proofs.«101271_j71768903516761_2_alg».proof.Proof.Gen.Kernel.Frame
import proofs.«101271_j71768903516761_2_alg».proof.Proof.Gen.KernelIdeal
import proofs.«101271_j71768903516761_2_alg».proof.Proof.Gen.KernelIdeal.Frame
import proofs.«101271_j71768903516761_2_alg».proof.Proof.Gen.ReferenceIdeal
import proofs.«101271_j71768903516761_2_alg».proof.Proof.Gen.ReferenceIdeal.Run
import proofs.«101271_j71768903516761_2_alg».proof.Proof.Gen.ReferenceIdeal.Read
import proofs.«101271_j71768903516761_2_alg».proof.Proof.Gen.Pre_finite_inputs
import proofs.«101271_j71768903516761_2_alg».proof.Proof.KRun
import proofs.«101271_j71768903516761_2_alg».proof.Proof.KValue
import Idealize.ShloMosaic.Adequacy
import Idealize.ShloMosaic.Init

noncomputable section

namespace Cert.Proof

open Idealize.ShloMosaic Idealize.ShloMosaic.TcCoe Idealize.SL.Sem
open Cert.KernelIdeal

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel. -/
theorem preserves : Cert.preserves_Kernel_KernelIdeal := trivial

/-- Both runs end with the reference's output and attention weights of the kernel's argument arrays: the kernel's by
    the walk through its segments, the reference's by its own run, whose arguments agree with the kernel's. -/
theorem algebraic : Cert.algebraic_KernelIdeal_ReferenceIdeal := by
  intro m ρ m' ρ' _ hagree
  refine ⟨fun c => Cert.ReferenceIdeal.Read.val_main_v26 (F := Ideal) (KValue.aQ m c) (KValue.aK m c) (KValue.aV m c) (KValue.aWq m c) (KValue.aWk m c) (KValue.aWv m c) (KValue.aWo m c),
    fun c => Cert.ReferenceIdeal.Read.val_main_v22 (F := Ideal) (KValue.aQ m c) (KValue.aK m c) (KValue.aWq m c) (KValue.aWk m c), ?_, ?_⟩
  · refine (θ_run Cert.KernelIdeal.defs _ _).mono (fun r h c => ?_) (Cert.KernelIdeal.Results.run_results (F := Ideal) m ρ)
    obtain ⟨h0, h1, hargs⟩ := h c
    exact ⟨h0.trans (KValue.out0 m ρ c), h1.trans (KValue.out1 m ρ c), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6⟩ := hagree c
    refine ⟨h0.trans ?_, h1.trans ?_, hargs⟩
    · rw [Cert.ReferenceIdeal.Read.val_main_v26_eq, e0, e1, e2, e3, e4, e5, e6]
    · rw [Cert.ReferenceIdeal.Read.val_main_v22_eq, e0, e1, e3, e4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
